-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192x1 : Shape := ⟨2, ![8192, 1]⟩
abbrev S128x128 : Shape := ⟨2, ![128, 128]⟩
abbrev S128x1 : Shape := ⟨2, ![128, 1]⟩
abbrev S128 : Shape := ⟨1, ![128]⟩
abbrev S128x8192 : Shape := ⟨2, ![128, 8192]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S8192x128, .f32⟩
  | .hbm, ⟨1, _⟩ => ⟨S8192x1, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S8192x128, .f32⟩
  | .local _ .vmem, ⟨5, _⟩ => ⟨S128x1, .f32⟩
  | .local _ .vmem, ⟨6, _⟩ => ⟨S128x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.addi arg0 c32_i32
  let c64_i32 : BitVec 32 := 64#32
  let c0_i32 : BitVec 32 := 0#32
  let v1 : BitVec 1 := Scalar.cmpi .eq c64_i32 c0_i32
  let c1_i32 : BitVec 32 := 1#32
  let v2 : BitVec 32 := Scalar.select v1 c1_i32 c64_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S128x128_S128x128_0_0 : ∀ a, (![0, 0] : Fin 2 → Nat) a + S128x128.size a ≤ S128x128.size a
  h_S128x128 : 0 < S128x128.numel
  reduces_S128x128_S128 : S128x128.Reduces [1] S128
  bitsLt_bf16_f32 : FTy.bits .bf16 < FTy.bits .f32
  inb_S8192x128_S8192x128_0_0 : ∀ a, (![0, 0] : Fin 2 → Nat) a + S8192x128.size a ≤ S8192x128.size a
  h_S8192x128 : 0 < S8192x128.numel
  transposes_S8192x128_p1_0_S128x8192 : S8192x128.Transposes [1, 0] S128x8192
  iota_S128x8192_d0_w32 : S128x8192.Iotas .tc 32 [0]
  iota_S128x8192_d1_w32 : S128x8192.Iotas .tc 32 [1]
  natLt_1_32 : 1 < 32
  reduces_S128x8192_S128 : S128x8192.Reduces [1] S128
  shapeCasts_S128_S128x1 : S128.ShapeCasts S128x1
  broadcasts_S128x1_S128x8192 : S128x1.Broadcasts S128x8192
  inb_S128x1_S128x1_0_0 : ∀ a, (![0, 0] : Fin 2 → Nat) a + S128x1.size a ≤ S128x1.size a
  h_S128x1 : 0 < S128x1.numel
  reducesTo_S8192x1_S_d0_1 : S8192x1.ReducesTo [0, 1] S_
  h_S_ : 0 < S_.numel
  dot_S128x128_S128x8192_S128x8192_1_0_0_1_n_n_wf : DotDims.WF S128x128 S128x8192 S128x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S8192x128.size a
  hwx0_0 : ∀ i : grid0.Coords, EltTy.bits .f32 = 32 ∨ (Rect.block (s := S8192x128) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S8192x128.size a
  hwx0_1 : ∀ i : grid0.Coords, EltTy.bits .f32 = 32 ∨ (Rect.block (s := S8192x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S8192x128.size a
  hwx0_2 : ∀ i : grid0.Coords, EltTy.bits .f32 = 32 ∨ (Rect.block (s := S8192x128) S8192x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S8192x1.size a
  hwx0_3 : ∀ i : grid0.Coords, EltTy.bits .f32 = 32 ∨ (Rect.block (s := S8192x1) S128x1.size (cc0_transform_3 i) (hinb0_3 i)).WholeWords (EltTy.packing .f32)

variable [Facts₀]

def dot_S128x128_S128x8192_S128x8192_1_0_0_1_n_n : DotDims S128x128 S128x8192 S128x8192 where
  lhsContracting := [1]
  rhsContracting := [0]
  lhsNonContracting := [0]
  rhsNonContracting := [1]
  lhsBatch := []
  rhsBatch := []
  wf := dot_S128x128_S128x8192_S128x8192_1_0_0_1_n_n_wf

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S8192x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x128 : Shape := ⟨2, ![8192, 128]⟩
abbrev S4096x128 : Shape := ⟨2, ![4096, 128]⟩
abbrev S_ : Shape := ⟨0, ![]⟩
abbrev S8192 : Shape := ⟨1, ![8192]⟩
abbrev S128x8192 : Shape := ⟨2, ![128, 8192]⟩
abbrev S8192x8192 : Shape := ⟨2, ![8192, 8192]⟩
abbrev S8192x1 : Shape := ⟨2, ![8192, 1]⟩

abbrev nBuf : Space → Nat
  | .hbm => 58
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S4096x128, .f32⟩
  | .hbm, ⟨2, _⟩ => ⟨S4096x128, .f32⟩
  | .hbm, ⟨3, _⟩ => ⟨S8192x128, .f32⟩
  | .hbm, ⟨4, _⟩ => ⟨S8192x128, .f32⟩
  | .hbm, ⟨5, _⟩ => ⟨S_, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192, .f32⟩
  | .hbm, ⟨11, _⟩ => ⟨S128x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S8192x8192, .i32⟩
  | .hbm, ⟨18, _⟩ => ⟨S8192x8192, .i32⟩
  | .hbm, ⟨19, _⟩ => ⟨S_, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S8192, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S8192x8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192, .f32⟩
  | .hbm, ⟨46, _⟩ => ⟨S8192, .f32⟩
  | .hbm, ⟨47, _⟩ => ⟨S8192, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_5 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_6 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_7 : Ref sig .tc := ⟨.hbm, 48, rfl⟩
abbrev main_v38 : Ref sig .tc := ⟨.hbm, 49, rfl⟩
abbrev main_cst_8 : Ref sig .tc := ⟨.hbm, 50, rfl⟩
abbrev main_v39 : Ref sig .tc := ⟨.hbm, 51, rfl⟩
abbrev main_cst_9 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_10 : Ref sig .tc := ⟨.hbm, 56, rfl⟩
abbrev main_v43 : Ref sig .tc := ⟨.hbm, 57, rfl⟩

abbrev nD : Nat := 1
abbrev τ : Topo := Topo.v7x

variable {F : FTy → Type} [FloatOps F]

class Facts₀ : Prop where
  slices_S8192x128_S4096x128_4096_0 : S8192x128.Slices ![4096, 0] S4096x128
  slices_S8192x128_S4096x128_0_0 : S8192x128.Slices ![0, 0] S4096x128
  concatenates_S4096x128_S4096x128_S8192x128_d0 : Shape.Concatenates [S4096x128, S4096x128] S8192x128 0
  reducesTo_S8192x128_S8192_d1 : S8192x128.ReducesTo [1] S8192
  h_S_ : 0 < S_.numel
  bcast_S_S8192 : S_.BroadcastsInDim S8192 (![] : Fin 0 → Fin S8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x8192_0_1 : S8192x1.BroadcastsInDim S8192x8192 (![0, 1] : Fin 2 → Fin S8192x8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KBody.lean ====
import proofs.«118030_j38843684225754_1_alg».proof.Proof.Gen.Kernel.Launch
import proofs.«118030_j38843684225754_1_alg».proof.Proof.Gen.Kernel.Skeleton
import proofs.«118030_j38843684225754_1_alg».proof.Proof.Gen.Kernel.Points
import Idealize.ShloMosaic.Lib.Pipeline.FrameBody
import Idealize.ShloMosaic.Lib.Ring
import Idealize.ShloMosaic.Lib.Tactic

/-!
  One grid point of the row kernel, run symbolically.

  At a point the body reads three staged blocks — a tile of 128 rows, the tile of the rows paired with
  them, and the whole 8192 × 128 array — and overwrites its 128 × 1 output tile with one number per row,
  a pure function `rowTerm` of the three blocks and of the point's coordinate (the coordinate places the
  excluded diagonal).  The triple below says exactly that: the three inputs are left as found, and the output
  tile ends at `rowTerm`, whatever it held before.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole of a 128 × 128 tile, of the 8192 × 128 array, and of the 128 × 1 output tile. -/
abbrev rTile : Rect S128x128 := Rect.unit (s := S128x128) ![0, 0] S128x128.size inb_S128x128_S128x128_0_0
abbrev rFull : Rect S8192x128 := Rect.unit (s := S8192x128) ![0, 0] S8192x128.size inb_S8192x128_S8192x128_0_0
abbrev rOut : Rect S128x1 := Rect.unit (s := S128x1) ![0, 0] S128x1.size inb_S128x1_S128x1_0_0

/-- What a point leaves in its output tile: per row, log of the pair ratio plus the sum over the other rows of
    log(1 − normalised similarity) minus log(1 − pair ratio), as the skeleton's payloads spell it. -/
def rowTerm (i : grid0.Coords) (x0 x1 : Vec F S128x128 .f32) (x2 : Vec F S8192x128 .f32) : Vec F S128x1 .f32 :=
  View.canon [⟨rOut, k0_pay1 (k0_pay5 i (View.ld x0 rTile) (View.ld x1 rTile) (View.ld x2 rFull))
    (k0_pay6 i (View.ld x0 rTile) (View.ld x1 rTile) (View.ld x2 rFull))⟩]

/-- The one store covers the output tile. -/
theorem cover_out (p0 : Vec F S128x1 .f32) (y : S128x1.Idx) :
    ∃ pc ∈ ([⟨rOut, p0⟩] : List (View.Piece (Elt F) S128x1 .f32)), y ∈ pc.1.set :=
  View.cover_of_tiled [⟨rOut, p0⟩] S128x1.size (by rfl) y

set_option maxHeartbeats 2000000 in
/-- The body on whole staging memrefs: inputs kept, the output tile at `rowTerm`. -/
theorem sound_kernel (c : Dev nD) (E : Set ℕ) (i : grid0.Coords)
    (arg1 : Memref sig .tc .vmem S128x128 .f32) (harg1 : arg1.IsWhole) (arg2 : Memref sig .tc .vmem S128x128 .f32) (harg2 : arg2.IsWhole)
    (arg3 : Memref sig .tc .vmem S8192x128 .f32) (harg3 : arg3.IsWhole) (arg4 : Memref sig .tc .vmem S128x1 .f32) (harg4 : arg4.IsWhole)
    (x0 x1 : Vec F S128x128 .f32) (x2 : Vec F S8192x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (rowTerm i x0 x1 x2)) -∗ K ⟨⟩))
      ⊢ wp frame (wpE (defs₀ (F := F)) Variants.none c none) E (cc0__row_kernel i arg1 harg1 arg2 harg2 arg3 harg3 arg4 harg4) K := by
  simp only [cc0__row_kernel_eq_skeleton]; unfold cc0__row_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

end Cert.Kernel.Hand

end
-- ==== Proof.KData.lean ====
import proofs.«118030_j38843684225754_1_alg».proof.Proof.KBody
import Idealize.ShloMosaic.Lib.Pipeline.Regions
import Idealize.ShloMosaic.Lib.Pipeline.Frame

/-!
  The proof data of the one pipeline, and the body obligation at every grid point.

  Three input windows stage pieces of ONE array (the argument): a tile of rows, the tile paired with it, and
  the whole array.  The argument's full share is therefore dealt among them in three parts; the output
  window's array is held outright.  At point `t` each input window's buffer holds its block of the argument
  (fetched there or, the whole-array window after the first point, still in place), and the body leaves the
  output tile at `rowTerm` of the three blocks.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: as launched (nothing precedes the region). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The proof data on core `c`. The three input windows hold one array: its share is dealt in three. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => rowTerm (grid0.coords t) (iblk m c 0 t) (iblk m c 1 t) (iblk m c 2 t)
  Φ _ := BI.emp
  q w := match w with
    | ⟨0, _⟩ => fullShare.left
    | ⟨1, _⟩ => fullShare.right.left
    | ⟨2, _⟩ => fullShare.right.right
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = rowTerm (grid0.coords t) (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KRun.lean ====
import proofs.«118030_j38843684225754_1_alg».proof.Proof.KData

/-!
  The run of @main: the region, then five host operations (sum the per-row terms, negate, divide by 8192).

  @main is read as two segments.  The region is entered from the launch memory: the argument's full share is dealt
  in three to the three input windows on it, the output array goes to the fourth window whole, and the five
  scalar buffers the host operations will write bypass the region.  At the exit the three parts of the argument
  are joined again, so that the host operations run within all the unscoped buffers held whole, the output array
  now at what the write-backs left (`outArr`) and everything else as launched.  Every final state then has every
  unscoped buffer at the host operations' result from that valuation.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev EP : Emb (UR sig nD τ) (MT nD τ sig Unit (Elt F) ℕ (UR sig nD τ) ℕ) := emb₁
abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm
/-- What rides beside the buffers: the core owes nothing. -/
abbrev R (c : Dev nD) : sProp 𝕄 := iprop(∃ W, owes (c : Thread nD τ) (0 : CellTallies nD τ sig Unit) W)

/-! ## Shares of the argument -/

/-- A full share is three parts, and back. -/
theorem share3 {ℓ : Loc nD τ sig} (f : Buf (Elt F) ℓ) :
    (ℓ ↦{fullShare} f : sProp 𝕄) ⊣⊢ iprop((ℓ ↦{fullShare.left} f) ∗ (ℓ ↦{fullShare.right.left} f) ∗ (ℓ ↦{fullShare.right.right} f)) := by
  have h1 : (ℓ ↦{fullShare} f : sProp 𝕄) ⊣⊢ iprop((ℓ ↦{fullShare.left} f) ∗ (ℓ ↦{fullShare.right} f)) :=
    pointsTo_share (PosShare.mem_left_op_right fullShare)
  have h2 : (ℓ ↦{fullShare.right} f : sProp 𝕄) ⊣⊢ iprop((ℓ ↦{fullShare.right.left} f) ∗ (ℓ ↦{fullShare.right.right} f)) :=
    pointsTo_share (PosShare.mem_left_op_right fullShare.right)
  constructor
  · iintro H
    ihave H' := h1.1 $$ H
    icases H' with ⟨Ha, Hb⟩
    ihave Hb' := h2.1 $$ Hb
    icases Hb' with ⟨Hb1, Hb2⟩
    isplitl [Ha]; · iexact Ha
    isplitl [Hb1]; · iexact Hb1
    iexact Hb2
  · iintro ⟨Ha, Hb1, Hb2⟩
    iapply h1.2
    isplitl [Ha]; · iexact Ha
    iapply h2.2
    isplitl [Hb1]; · iexact Hb1
    iexact Hb2

/-- The core's unscoped buffers, listed. -/
theorem bufs_eq (c : Dev nD) (W : (b : Ref sig .tc) → Buf (Elt F) ((c : Thread nD τ).loc b)) :
    (unscopedBufs (Ix := Unit) (Name := ℕ) (U := UR sig nD τ) (Lvl := ℕ) c W : sProp 𝕄)
      = iprop((((c : Thread nD τ).loc main_arg0) ↦{fullShare} W main_arg0) ∗ (((c : Thread nD τ).loc main_v0) ↦{fullShare} W main_v0)
          ∗ (((c : Thread nD τ).loc main_cst) ↦{fullShare} W main_cst) ∗ (((c : Thread nD τ).loc main_v1) ↦{fullShare} W main_v1)
          ∗ (((c : Thread nD τ).loc main_v2) ↦{fullShare} W main_v2) ∗ (((c : Thread nD τ).loc main_cst_0) ↦{fullShare} W main_cst_0)
          ∗ (((c : Thread nD τ).loc main_v3) ↦{fullShare} W main_v3)) := by
  unfold unscopedBufs
  exact bigSep_eq_bigSepL_of_eq [main_arg0, main_v0, main_cst, main_v1, main_v2, main_cst_0, main_v3] (by decide) (by decide) _

/-- The pipeline's arrays, listed: three parts of the argument and the output array whole. -/
theorem arrays_eq4 (c : Dev nD) (A : (w : Fin cfg0.W) → Buf (Elt F) ((cfg0.win w).arr.view.loc (c : Thread nD τ))) :
    ((dats m 0 c).arrays A : sProp 𝕄)
      = iprop((((c : Thread nD τ).loc main_arg0) ↦{fullShare.left} A 0) ∗ (((c : Thread nD τ).loc main_arg0) ↦{fullShare.right.left} A 1)
          ∗ (((c : Thread nD τ).loc main_arg0) ↦{fullShare.right.right} A 2) ∗ (((c : Thread nD τ).loc main_v0) ↦{fullShare} A 3)) := by
  unfold Dat.arrays
  rw [bigSep_W0]
  rw [(arr_whole0 0).set_eq_univ, (arr_whole0 3).set_eq_univ]
  rfl

/-! ## The region's ends -/

/-- The output array after the last write-back. -/
def outArr (c : Dev nD) : Buf (Elt F) ((c : Thread nD τ).loc main_v0) := (dats m 0 c).arrAt 3 cfg0.N

/-- The device's buffers at the region's exit: the output array written, everything else as launched. -/
def Wx (c : Dev nD) : Valuation τ sig (Elt F) := by
  classical
  exact Function.update (fun b => m ((c : Dev nD), b)) (Proc.devRef .tc main_v0) (outArr m c)

theorem Wx_v0 (c : Dev nD) : Wx m c (Proc.devRef .tc main_v0) = outArr m c := by
  unfold Wx; exact Function.update_self _ _ _

theorem Wx_ne (c : Dev nD) (b : Ref sig .tc) (hb : b ≠ main_v0) : Wx m c (Proc.devRef .tc b) = m ((c : Thread nD τ).loc b) := by
  unfold Wx; exact Function.update_of_ne (StableHlo.devRef_ne_of_ne hb) _ _

/-- The argument arrays are the launch contents through the region: an input window's array is never written. -/
theorem arrAt_in0 (c : Dev nD) (n : Nat) : (dats m 0 c).arrAt 0 n = m ((c : Thread nD τ).loc main_arg0) :=
  ((dats m 0 c).arrAt_in 0 rfl n).trans (A_eq m c 0)
theorem arrAt_in1 (c : Dev nD) (n : Nat) : (dats m 0 c).arrAt 1 n = m ((c : Thread nD τ).loc main_arg0) :=
  ((dats m 0 c).arrAt_in 1 rfl n).trans (A_eq m c 1)
theorem arrAt_in2 (c : Dev nD) (n : Nat) : (dats m 0 c).arrAt 2 n = m ((c : Thread nD τ).loc main_arg0) :=
  ((dats m 0 c).arrAt_in 2 rfl n).trans (A_eq m c 2)

/-- The unscoped buffers at the exit valuation, listed. -/
theorem bufs_Wx (c : Dev nD) :
    (unscopedBufs (Ix := Unit) (Name := ℕ) (U := UR sig nD τ) (Lvl := ℕ) c (fun b => Wx m c b) : sProp 𝕄)
      = iprop((((c : Thread nD τ).loc main_arg0) ↦{fullShare} m ((c : Thread nD τ).loc main_arg0)) ∗ (((c : Thread nD τ).loc main_v0) ↦{fullShare} outArr m c)
          ∗ (((c : Thread nD τ).loc main_cst) ↦{fullShare} m ((c : Thread nD τ).loc main_cst)) ∗ (((c : Thread nD τ).loc main_v1) ↦{fullShare} m ((c : Thread nD τ).loc main_v1))
          ∗ (((c : Thread nD τ).loc main_v2) ↦{fullShare} m ((c : Thread nD τ).loc main_v2)) ∗ (((c : Thread nD τ).loc main_cst_0) ↦{fullShare} m ((c : Thread nD τ).loc main_cst_0))
          ∗ (((c : Thread nD τ).loc main_v3) ↦{fullShare} m ((c : Thread nD τ).loc main_v3))) := by
  rw [bufs_eq]
  rw [Wx_v0, Wx_ne m c main_arg0 (by decide), Wx_ne m c main_cst (by decide), Wx_ne m c main_v1 (by decide),
    Wx_ne m c main_v2 (by decide), Wx_ne m c main_cst_0 (by decide), Wx_ne m c main_v3 (by decide)]

/-- What bypasses the region: the five scalar buffers, as launched. -/
abbrev Zc (c : Dev nD) : sProp 𝕄 :=
  iprop((((c : Thread nD τ).loc main_cst) ↦{fullShare} m ((c : Thread nD τ).loc main_cst)) ∗ (((c : Thread nD τ).loc main_v1) ↦{fullShare} m ((c : Thread nD τ).loc main_v1))
          ∗ (((c : Thread nD τ).loc main_v2) ↦{fullShare} m ((c : Thread nD τ).loc main_v2)) ∗ (((c : Thread nD τ).loc main_cst_0) ↦{fullShare} m ((c : Thread nD τ).loc main_cst_0))
          ∗ (((c : Thread nD τ).loc main_v3) ↦{fullShare} m ((c : Thread nD τ).loc main_v3)))

set_option backward.isDefEq.respectTransparency.types false in
/-- THE REGION: entered from the launch memory, left with the output array written. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ L lv 0 fun _ _ => rfl
  pre c := iprop(unscopedBufs c (V m c) ∗ R c)
  post c := iprop(StableHlo.held (c : Thread nD τ) (Pipeline.ucRefs τ sig) (Wx m c) ∗ R c)
  X c := BI.emp
  Y c := BI.emp
  Z c := Zc m c
  hentry c := by
    rw [bufs_eq, arrays_eq4]
    iintro ⟨⟨⟨Harg, Hv0, Hrest⟩, HO⟩, -, -⟩
    ihave H3 := (share3 _).1 $$ Harg
    icases H3 with ⟨Ha, Hb, Hc⟩
    imodintro
    isplitl [Ha Hb Hc Hv0]
    · isplitl [Ha]; · iexact Ha
      isplitl [Hb]; · iexact Hb
      isplitl [Hc]; · iexact Hc
      iexact Hv0
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = (BI.emp : sProp 𝕄) from rfl]
    iintro -; iempintro
  hout c := by
    rw [show (dats m 0 c).Φ (Fin.last cfg0.N) = (BI.emp : sProp 𝕄) from rfl,
      Pipeline.ownSems0_none nD τ sig (Elt F) Unit ℕ (UR sig nD τ) ℕ c,
      show Pipeline.scopedRest (Ix := Unit) (Name := ℕ) (U := UR sig nD τ) (Lvl := ℕ) (Val := Elt F) (Pipeline.pin (pcfgs (F := F)) adm 0).spec c = (BI.emp : sProp 𝕄) from scopedRest0_eq c]
    iintro -
    isplitr; · iempintro
    isplitr; · iempintro
    iempintro
  hexit c := by
    rw [← Pipeline.unscopedBufs_held (Ix := Unit) (Name := ℕ) (U := UR sig nD τ) (Lvl := ℕ) c (Wx m c), bufs_Wx, arrays_eq4,
      arrAt_in0, arrAt_in1, arrAt_in2]
    iintro ⟨⟨Ha, Hb, Hc, Hv0⟩, HO, -, HZ⟩
    imodintro
    isplitr [HO]
    · isplitl [Ha Hb Hc]
      · iapply (share3 _).2
        isplitl [Ha]; · iexact Ha
        isplitl [Hb]; · iexact Hb
        iexact Hc
      isplitl [Hv0]; · iexact Hv0
      iexact HZ
    · unfold Pipeline.Dat.owesAt Pipeline.owesWithin
      icases HO with ⟨%W, -, HO⟩; iexists W; iexact HO

/-- THE HOST SEGMENT: the five operations over the unscoped buffers. -/
def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (Wx m) R

/-- @main as the list of the two. -/
abbrev segs : List (Pipeline.Seg (pcfgs (F := F)) adm (dats m) () defs₀ 𝒱₀ L lv) := [.region (reg0 m), .host (seg1 m)]

/-- The device's buffers at the end: the host operations' result from the exit valuation. -/
abbrev Wend (c : Dev nD) : Valuation τ sig (Elt F) := StableHlo.after hostOps1 (Wx m c)

/-- The physical post: every unscoped buffer at the final valuation. -/
def QC : PUnit × MemSt nD τ sig (Elt F) → Prop := fun r =>
  ∀ c : Dev nD, ∀ b ∈ Pipeline.ucRefs τ sig, r.2.mem ((c : Thread nD τ).1, b) = Wend m c b

set_option backward.isDefEq.respectTransparency.types false in
/-- From any memory with zero counters: every weakly fair execution of @main terminates, and every final state has
    every unscoped buffer at the host operations' result from the region's exit valuation. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [main_segs adm (dats m) () 𝒱₀ L lv (seg1 m) (reg0 m) rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      iintro Hu
      imodintro
      isplitl [Hu]
      · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(unscopedBufs c (V m c) ∗ R c))
    (Tₙ := fun c => StableHlo.held (c : Thread nD τ) (Pipeline.ucRefs τ sig) (Wend m c))
    (hch := ⟨fun _ => .rfl, fun _ => .rfl, fun _ => .rfl⟩)
    (hinit := by
      refine Pipeline.initEach L lv fun c => ?_
      iintro ⟨⟨Hh, -, HO, -, -, -⟩, -⟩
      imodintro
      isplitl [Hh]; · iexact Hh
      iexists ∅; iexact HO)
    (QY := fun c s => ∀ b ∈ Pipeline.ucRefs τ sig, s.mem ((c : Thread nD τ).1, b) = Wend m c b)
    (hfin := fun c s' => by
      unfold StableHlo.held
      iintro ⟨Ha, HSI⟩
      imodintro
      iapply (pointsTo_read_all (Pipeline.ucRefs τ sig) (fun b => ((c : Thread nD τ).1, b)) (Wend m c) s')
      isplitl [Ha] <;> iassumption)
    (hQ := fun _ h => h)

/-! ## The run, read at the argument and at the result -/

theorem arg0_mem : (Proc.devRef .tc main_arg0 : DevRef τ sig) ∈ Pipeline.ucRefs τ sig :=
  Finset.mem_filter.mpr ⟨StableHlo.devRef_mem_tcRefs main_arg0, by decide⟩

theorem v3_mem : (Proc.devRef .tc main_v3 : DevRef τ sig) ∈ Pipeline.ucRefs τ sig :=
  Finset.mem_filter.mpr ⟨StableHlo.devRef_mem_tcRefs main_v3, by decide⟩

/-- No host operation writes the argument. -/
theorem Wend_arg0 (c : Dev nD) : Wend m c (Proc.devRef .tc main_arg0) = m ((c : Thread nD τ).loc main_arg0) := by
  show StableHlo.after hostOps1 (Wx m c) (Proc.devRef .tc main_arg0) = _
  after_results
  exact Wx_ne m c main_arg0 (by decide)

/-- The result buffer: minus the sum of the output array, over the batch size. -/
theorem Wend_v3 (c : Dev nD) : Wend m c (Proc.devRef .tc main_v3)
    = Host.divf (Host.negf (Host.reduceAdd (outArr m c) (constant (F := F) S_ .f32 0x00000000#32) reducesTo_S8192x1_S_d0_1 h_S_)) (constant (F := F) S_ .f32 0x46000000#32) := by
  show StableHlo.after hostOps1 (Wx m c) (Proc.devRef .tc main_v3) = _
  after_results
  rw [Wx_v0]

/-- THE FRAME: @main runs to the end, faults nowhere, and leaves its argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c _ arg0_mem).trans (Wend_arg0 m c)) (run_main m ρ)

end Cert.Kernel.Hand

end
-- ==== Proof.KIBody.lean ====
import proofs.«118030_j38843684225754_1_alg».proof.Proof.Gen.KernelIdeal.Launch
import proofs.«118030_j38843684225754_1_alg».proof.Proof.Gen.KernelIdeal.Skeleton
import proofs.«118030_j38843684225754_1_alg».proof.Proof.Gen.KernelIdeal.Points
import Idealize.ShloMosaic.Lib.Pipeline.FrameBody
import Idealize.ShloMosaic.Lib.Ring
import Idealize.ShloMosaic.Lib.Tactic

/-!
  One grid point of the row kernel, run symbolically.

  At a point the body reads three staged blocks — a tile of 128 rows, the tile of the rows paired with
  them, and the whole 8192 × 128 array — and overwrites its 128 × 1 output tile with one number per row,
  a pure function `rowTerm` of the three blocks and of the point's coordinate (the coordinate places the
  excluded diagonal).  The triple below says exactly that: the three inputs are left as found, and the output
  tile ends at `rowTerm`, whatever it held before.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole of a 128 × 128 tile, of the 8192 × 128 array, and of the 128 × 1 output tile. -/
abbrev rTile : Rect S128x128 := Rect.unit (s := S128x128) ![0, 0] S128x128.size inb_S128x128_S128x128_0_0
abbrev rFull : Rect S8192x128 := Rect.unit (s := S8192x128) ![0, 0] S8192x128.size inb_S8192x128_S8192x128_0_0
abbrev rOut : Rect S128x1 := Rect.unit (s := S128x1) ![0, 0] S128x1.size inb_S128x1_S128x1_0_0

/-- What a point leaves in its output tile: per row, log of the pair ratio plus the sum over the other rows of
    log(1 − normalised similarity) minus log(1 − pair ratio), as the skeleton's payloads spell it. -/
def rowTerm (i : grid0.Coords) (x0 x1 : Vec F S128x128 .f32) (x2 : Vec F S8192x128 .f32) : Vec F S128x1 .f32 :=
  View.canon [⟨rOut, k0_pay1 (k0_pay5 i (View.ld x0 rTile) (View.ld x1 rTile) (View.ld x2 rFull))
    (k0_pay6 i (View.ld x0 rTile) (View.ld x1 rTile) (View.ld x2 rFull))⟩]

/-- The one store covers the output tile. -/
theorem cover_out (p0 : Vec F S128x1 .f32) (y : S128x1.Idx) :
    ∃ pc ∈ ([⟨rOut, p0⟩] : List (View.Piece (Elt F) S128x1 .f32)), y ∈ pc.1.set :=
  View.cover_of_tiled [⟨rOut, p0⟩] S128x1.size (by rfl) y

set_option maxHeartbeats 2000000 in
/-- The body on whole staging memrefs: inputs kept, the output tile at `rowTerm`. -/
theorem sound_kernel (c : Dev nD) (E : Set ℕ) (i : grid0.Coords)
    (arg1 : Memref sig .tc .vmem S128x128 .f32) (harg1 : arg1.IsWhole) (arg2 : Memref sig .tc .vmem S128x128 .f32) (harg2 : arg2.IsWhole)
    (arg3 : Memref sig .tc .vmem S8192x128 .f32) (harg3 : arg3.IsWhole) (arg4 : Memref sig .tc .vmem S128x1 .f32) (harg4 : arg4.IsWhole)
    (x0 x1 : Vec F S128x128 .f32) (x2 : Vec F S8192x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (rowTerm i x0 x1 x2)) -∗ K ⟨⟩))
      ⊢ wp frame (wpE (defs₀ (F := F)) Variants.none c none) E (cc0__row_kernel i arg1 harg1 arg2 harg2 arg3 harg3 arg4 harg4) K := by
  simp only [cc0__row_kernel_eq_skeleton]; unfold cc0__row_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

end Cert.KernelIdeal.Hand

end
-- ==== Proof.KIData.lean ====
import proofs.«118030_j38843684225754_1_alg».proof.Proof.KIBody
import Idealize.ShloMosaic.Lib.Pipeline.Regions
import Idealize.ShloMosaic.Lib.Pipeline.Frame

/-!
  The proof data of the one pipeline, and the body obligation at every grid point.

  Three input windows stage pieces of ONE array (the argument): a tile of rows, the tile paired with it, and
  the whole array.  The argument's full share is therefore dealt among them in three parts; the output
  window's array is held outright.  At point `t` each input window's buffer holds its block of the argument
  (fetched there or, the whole-array window after the first point, still in place), and the body leaves the
  output tile at `rowTerm` of the three blocks.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: as launched (nothing precedes the region). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The proof data on core `c`. The three input windows hold one array: its share is dealt in three. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => rowTerm (grid0.coords t) (iblk m c 0 t) (iblk m c 1 t) (iblk m c 2 t)
  Φ _ := BI.emp
  q w := match w with
    | ⟨0, _⟩ => fullShare.left
    | ⟨1, _⟩ => fullShare.right.left
    | ⟨2, _⟩ => fullShare.right.right
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = rowTerm (grid0.coords t) (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KIRun.lean ====
import proofs.«118030_j38843684225754_1_alg».proof.Proof.KIData

/-!
  The run of @main: the region, then five host operations (sum the per-row terms, negate, divide by 8192).

  @main is read as two segments.  The region is entered from the launch memory: the argument's full share is dealt
  in three to the three input windows on it, the output array goes to the fourth window whole, and the five
  scalar buffers the host operations will write bypass the region.  At the exit the three parts of the argument
  are joined again, so that the host operations run within all the unscoped buffers held whole, the output array
  now at what the write-backs left (`outArr`) and everything else as launched.  Every final state then has every
  unscoped buffer at the host operations' result from that valuation.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev EP : Emb (UR sig nD τ) (MT nD τ sig Unit (Elt F) ℕ (UR sig nD τ) ℕ) := emb₁
abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm
/-- What rides beside the buffers: the core owes nothing. -/
abbrev R (c : Dev nD) : sProp 𝕄 := iprop(∃ W, owes (c : Thread nD τ) (0 : CellTallies nD τ sig Unit) W)

/-! ## Shares of the argument -/

/-- A full share is three parts, and back. -/
theorem share3 {ℓ : Loc nD τ sig} (f : Buf (Elt F) ℓ) :
    (ℓ ↦{fullShare} f : sProp 𝕄) ⊣⊢ iprop((ℓ ↦{fullShare.left} f) ∗ (ℓ ↦{fullShare.right.left} f) ∗ (ℓ ↦{fullShare.right.right} f)) := by
  have h1 : (ℓ ↦{fullShare} f : sProp 𝕄) ⊣⊢ iprop((ℓ ↦{fullShare.left} f) ∗ (ℓ ↦{fullShare.right} f)) :=
    pointsTo_share (PosShare.mem_left_op_right fullShare)
  have h2 : (ℓ ↦{fullShare.right} f : sProp 𝕄) ⊣⊢ iprop((ℓ ↦{fullShare.right.left} f) ∗ (ℓ ↦{fullShare.right.right} f)) :=
    pointsTo_share (PosShare.mem_left_op_right fullShare.right)
  constructor
  · iintro H
    ihave H' := h1.1 $$ H
    icases H' with ⟨Ha, Hb⟩
    ihave Hb' := h2.1 $$ Hb
    icases Hb' with ⟨Hb1, Hb2⟩
    isplitl [Ha]; · iexact Ha
    isplitl [Hb1]; · iexact Hb1
    iexact Hb2
  · iintro ⟨Ha, Hb1, Hb2⟩
    iapply h1.2
    isplitl [Ha]; · iexact Ha
    iapply h2.2
    isplitl [Hb1]; · iexact Hb1
    iexact Hb2

/-- The core's unscoped buffers, listed. -/
theorem bufs_eq (c : Dev nD) (W : (b : Ref sig .tc) → Buf (Elt F) ((c : Thread nD τ).loc b)) :
    (unscopedBufs (Ix := Unit) (Name := ℕ) (U := UR sig nD τ) (Lvl := ℕ) c W : sProp 𝕄)
      = iprop((((c : Thread nD τ).loc main_arg0) ↦{fullShare} W main_arg0) ∗ (((c : Thread nD τ).loc main_v0) ↦{fullShare} W main_v0)
          ∗ (((c : Thread nD τ).loc main_cst) ↦{fullShare} W main_cst) ∗ (((c : Thread nD τ).loc main_v1) ↦{fullShare} W main_v1)
          ∗ (((c : Thread nD τ).loc main_v2) ↦{fullShare} W main_v2) ∗ (((c : Thread nD τ).loc main_cst_0) ↦{fullShare} W main_cst_0)
          ∗ (((c : Thread nD τ).loc main_v3) ↦{fullShare} W main_v3)) := by
  unfold unscopedBufs
  exact bigSep_eq_bigSepL_of_eq [main_arg0, main_v0, main_cst, main_v1, main_v2, main_cst_0, main_v3] (by decide) (by decide) _

/-- The pipeline's arrays, listed: three parts of the argument and the output array whole. -/
theorem arrays_eq4 (c : Dev nD) (A : (w : Fin cfg0.W) → Buf (Elt F) ((cfg0.win w).arr.view.loc (c : Thread nD τ))) :
    ((dats m 0 c).arrays A : sProp 𝕄)
      = iprop((((c : Thread nD τ).loc main_arg0) ↦{fullShare.left} A 0) ∗ (((c : Thread nD τ).loc main_arg0) ↦{fullShare.right.left} A 1)
          ∗ (((c : Thread nD τ).loc main_arg0) ↦{fullShare.right.right} A 2) ∗ (((c : Thread nD τ).loc main_v0) ↦{fullShare} A 3)) := by
  unfold Dat.arrays
  rw [bigSep_W0]
  rw [(arr_whole0 0).set_eq_univ, (arr_whole0 3).set_eq_univ]
  rfl

/-! ## The region's ends -/

/-- The output array after the last write-back. -/
def outArr (c : Dev nD) : Buf (Elt F) ((c : Thread nD τ).loc main_v0) := (dats m 0 c).arrAt 3 cfg0.N

/-- The device's buffers at the region's exit: the output array written, everything else as launched. -/
def Wx (c : Dev nD) : Valuation τ sig (Elt F) := by
  classical
  exact Function.update (fun b => m ((c : Dev nD), b)) (Proc.devRef .tc main_v0) (outArr m c)

theorem Wx_v0 (c : Dev nD) : Wx m c (Proc.devRef .tc main_v0) = outArr m c := by
  unfold Wx; exact Function.update_self _ _ _

theorem Wx_ne (c : Dev nD) (b : Ref sig .tc) (hb : b ≠ main_v0) : Wx m c (Proc.devRef .tc b) = m ((c : Thread nD τ).loc b) := by
  unfold Wx; exact Function.update_of_ne (StableHlo.devRef_ne_of_ne hb) _ _

/-- The argument arrays are the launch contents through the region: an input window's array is never written. -/
theorem arrAt_in0 (c : Dev nD) (n : Nat) : (dats m 0 c).arrAt 0 n = m ((c : Thread nD τ).loc main_arg0) :=
  ((dats m 0 c).arrAt_in 0 rfl n).trans (A_eq m c 0)
theorem arrAt_in1 (c : Dev nD) (n : Nat) : (dats m 0 c).arrAt 1 n = m ((c : Thread nD τ).loc main_arg0) :=
  ((dats m 0 c).arrAt_in 1 rfl n).trans (A_eq m c 1)
theorem arrAt_in2 (c : Dev nD) (n : Nat) : (dats m 0 c).arrAt 2 n = m ((c : Thread nD τ).loc main_arg0) :=
  ((dats m 0 c).arrAt_in 2 rfl n).trans (A_eq m c 2)

/-- The unscoped buffers at the exit valuation, listed. -/
theorem bufs_Wx (c : Dev nD) :
    (unscopedBufs (Ix := Unit) (Name := ℕ) (U := UR sig nD τ) (Lvl := ℕ) c (fun b => Wx m c b) : sProp 𝕄)
      = iprop((((c : Thread nD τ).loc main_arg0) ↦{fullShare} m ((c : Thread nD τ).loc main_arg0)) ∗ (((c : Thread nD τ).loc main_v0) ↦{fullShare} outArr m c)
          ∗ (((c : Thread nD τ).loc main_cst) ↦{fullShare} m ((c : Thread nD τ).loc main_cst)) ∗ (((c : Thread nD τ).loc main_v1) ↦{fullShare} m ((c : Thread nD τ).loc main_v1))
          ∗ (((c : Thread nD τ).loc main_v2) ↦{fullShare} m ((c : Thread nD τ).loc main_v2)) ∗ (((c : Thread nD τ).loc main_cst_0) ↦{fullShare} m ((c : Thread nD τ).loc main_cst_0))
          ∗ (((c : Thread nD τ).loc main_v3) ↦{fullShare} m ((c : Thread nD τ).loc main_v3))) := by
  rw [bufs_eq]
  rw [Wx_v0, Wx_ne m c main_arg0 (by decide), Wx_ne m c main_cst (by decide), Wx_ne m c main_v1 (by decide),
    Wx_ne m c main_v2 (by decide), Wx_ne m c main_cst_0 (by decide), Wx_ne m c main_v3 (by decide)]

/-- What bypasses the region: the five scalar buffers, as launched. -/
abbrev Zc (c : Dev nD) : sProp 𝕄 :=
  iprop((((c : Thread nD τ).loc main_cst) ↦{fullShare} m ((c : Thread nD τ).loc main_cst)) ∗ (((c : Thread nD τ).loc main_v1) ↦{fullShare} m ((c : Thread nD τ).loc main_v1))
          ∗ (((c : Thread nD τ).loc main_v2) ↦{fullShare} m ((c : Thread nD τ).loc main_v2)) ∗ (((c : Thread nD τ).loc main_cst_0) ↦{fullShare} m ((c : Thread nD τ).loc main_cst_0))
          ∗ (((c : Thread nD τ).loc main_v3) ↦{fullShare} m ((c : Thread nD τ).loc main_v3)))

set_option backward.isDefEq.respectTransparency.types false in
/-- THE REGION: entered from the launch memory, left with the output array written. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ L lv 0 fun _ _ => rfl
  pre c := iprop(unscopedBufs c (V m c) ∗ R c)
  post c := iprop(StableHlo.held (c : Thread nD τ) (Pipeline.ucRefs τ sig) (Wx m c) ∗ R c)
  X c := BI.emp
  Y c := BI.emp
  Z c := Zc m c
  hentry c := by
    rw [bufs_eq, arrays_eq4]
    iintro ⟨⟨⟨Harg, Hv0, Hrest⟩, HO⟩, -, -⟩
    ihave H3 := (share3 _).1 $$ Harg
    icases H3 with ⟨Ha, Hb, Hc⟩
    imodintro
    isplitl [Ha Hb Hc Hv0]
    · isplitl [Ha]; · iexact Ha
      isplitl [Hb]; · iexact Hb
      isplitl [Hc]; · iexact Hc
      iexact Hv0
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = (BI.emp : sProp 𝕄) from rfl]
    iintro -; iempintro
  hout c := by
    rw [show (dats m 0 c).Φ (Fin.last cfg0.N) = (BI.emp : sProp 𝕄) from rfl,
      Pipeline.ownSems0_none nD τ sig (Elt F) Unit ℕ (UR sig nD τ) ℕ c,
      show Pipeline.scopedRest (Ix := Unit) (Name := ℕ) (U := UR sig nD τ) (Lvl := ℕ) (Val := Elt F) (Pipeline.pin (pcfgs (F := F)) adm 0).spec c = (BI.emp : sProp 𝕄) from scopedRest0_eq c]
    iintro -
    isplitr; · iempintro
    isplitr; · iempintro
    iempintro
  hexit c := by
    rw [← Pipeline.unscopedBufs_held (Ix := Unit) (Name := ℕ) (U := UR sig nD τ) (Lvl := ℕ) c (Wx m c), bufs_Wx, arrays_eq4,
      arrAt_in0, arrAt_in1, arrAt_in2]
    iintro ⟨⟨Ha, Hb, Hc, Hv0⟩, HO, -, HZ⟩
    imodintro
    isplitr [HO]
    · isplitl [Ha Hb Hc]
      · iapply (share3 _).2
        isplitl [Ha]; · iexact Ha
        isplitl [Hb]; · iexact Hb
        iexact Hc
      isplitl [Hv0]; · iexact Hv0
      iexact HZ
    · unfold Pipeline.Dat.owesAt Pipeline.owesWithin
      icases HO with ⟨%W, -, HO⟩; iexists W; iexact HO

/-- THE HOST SEGMENT: the five operations over the unscoped buffers. -/
def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (Wx m) R

/-- @main as the list of the two. -/
abbrev segs : List (Pipeline.Seg (pcfgs (F := F)) adm (dats m) () defs₀ 𝒱₀ L lv) := [.region (reg0 m), .host (seg1 m)]

/-- The device's buffers at the end: the host operations' result from the exit valuation. -/
abbrev Wend (c : Dev nD) : Valuation τ sig (Elt F) := StableHlo.after hostOps1 (Wx m c)

/-- The physical post: every unscoped buffer at the final valuation. -/
def QC : PUnit × MemSt nD τ sig (Elt F) → Prop := fun r =>
  ∀ c : Dev nD, ∀ b ∈ Pipeline.ucRefs τ sig, r.2.mem ((c : Thread nD τ).1, b) = Wend m c b

set_option backward.isDefEq.respectTransparency.types false in
/-- From any memory with zero counters: every weakly fair execution of @main terminates, and every final state has
    every unscoped buffer at the host operations' result from the region's exit valuation. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [main_segs adm (dats m) () 𝒱₀ L lv (seg1 m) (reg0 m) rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      iintro Hu
      imodintro
      isplitl [Hu]
      · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(unscopedBufs c (V m c) ∗ R c))
    (Tₙ := fun c => StableHlo.held (c : Thread nD τ) (Pipeline.ucRefs τ sig) (Wend m c))
    (hch := ⟨fun _ => .rfl, fun _ => .rfl, fun _ => .rfl⟩)
    (hinit := by
      refine Pipeline.initEach L lv fun c => ?_
      iintro ⟨⟨Hh, -, HO, -, -, -⟩, -⟩
      imodintro
      isplitl [Hh]; · iexact Hh
      iexists ∅; iexact HO)
    (QY := fun c s => ∀ b ∈ Pipeline.ucRefs τ sig, s.mem ((c : Thread nD τ).1, b) = Wend m c b)
    (hfin := fun c s' => by
      unfold StableHlo.held
      iintro ⟨Ha, HSI⟩
      imodintro
      iapply (pointsTo_read_all (Pipeline.ucRefs τ sig) (fun b => ((c : Thread nD τ).1, b)) (Wend m c) s')
      isplitl [Ha] <;> iassumption)
    (hQ := fun _ h => h)

/-! ## The run, read at the argument and at the result -/

theorem arg0_mem : (Proc.devRef .tc main_arg0 : DevRef τ sig) ∈ Pipeline.ucRefs τ sig :=
  Finset.mem_filter.mpr ⟨StableHlo.devRef_mem_tcRefs main_arg0, by decide⟩

theorem v3_mem : (Proc.devRef .tc main_v3 : DevRef τ sig) ∈ Pipeline.ucRefs τ sig :=
  Finset.mem_filter.mpr ⟨StableHlo.devRef_mem_tcRefs main_v3, by decide⟩

/-- No host operation writes the argument. -/
theorem Wend_arg0 (c : Dev nD) : Wend m c (Proc.devRef .tc main_arg0) = m ((c : Thread nD τ).loc main_arg0) := by
  show StableHlo.after hostOps1 (Wx m c) (Proc.devRef .tc main_arg0) = _
  after_results
  exact Wx_ne m c main_arg0 (by decide)

/-- The result buffer: minus the sum of the output array, over the batch size. -/
theorem Wend_v3 (c : Dev nD) : Wend m c (Proc.devRef .tc main_v3)
    = Host.divf (Host.negf (Host.reduceAdd (outArr m c) (constant (F := F) S_ .f32 0x00000000#32) reducesTo_S8192x1_S_d0_1 h_S_)) (constant (F := F) S_ .f32 0x46000000#32) := by
  show StableHlo.after hostOps1 (Wx m c) (Proc.devRef .tc main_v3) = _
  after_results
  rw [Wx_v0]

/-- THE FRAME: @main runs to the end, faults nowhere, and leaves its argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c _ arg0_mem).trans (Wend_arg0 m c)) (run_main m ρ)

end Cert.KernelIdeal.Hand

end
-- ==== Proof.RowSpec.lean ====
import Idealize.ShloMosaic.PureOps.Ideal
import Idealize.ShloMosaic.PureOps.Ideal.Laws
import Idealize.ShloMosaic.Lib.ValueIdx

/-!
  The loss, row by row, on the extended reals.

  For a row `a` of the embedding matrix, its paired row `b` and all rows `X`, with `T` the temperature and `ε`
  the guard:

    pos      = exp (⟨a, b⟩ / T)
    prob j   = exp (⟨a, X j⟩ / T) · [j ≠ g]            (the row's own column `g` is masked out)
    all      = ∑ j, prob j
    ratio    = pos / (all + ε)
    rowB     = log ratio
    rowA     = ∑ j, log1p (−(prob j / (all + ε))) − log1p (−ratio)

  The kernel writes `rowB + rowA · 1` per row and the host sums the rows; the reference sums `rowB` and `rowA`
  separately and adds the two sums.  Addition on the extended reals is commutative and associative, so the sum of
  the row terms is the sum of the two sums (`sum_rows`); no finiteness is used.
-/

noncomputable section

open scoped BigOperators

namespace Cert.RowSpec

open Idealize.ShloMosaic

/-- The constants both programs spell: the temperature 0.07, the guard 1e-10, 1.0 and 8192.0, as their patterns. -/
abbrev cT : EReal := Ideal.ofBits .f32 0x3D8F5C29#32
abbrev cEps : EReal := Ideal.ofBits .f32 0x2EDBE6FF#32
abbrev cOne : EReal := Ideal.ofBits .f32 0x3F800000#32
abbrev cB : EReal := Ideal.ofBits .f32 0x46000000#32

/-- The pattern of `1.0` denotes `1`. -/
theorem cOne_eq : cOne = 1 := by
  simp [Ideal.ofBits, Ideal.ieee, -EReal.coe_mul]; norm_num

/-- The mask of the diagonal: `0` at the row's own column, `1` elsewhere. -/
def mask (g : ℕ) (j : Fin 8192) : EReal := if g = j.val then 0 else 1

def pos (a b : Fin 128 → EReal) : EReal := Ideal.exp (Ideal.div (∑ k : Fin 128, a k * b k) cT)

def prob (a : Fin 128 → EReal) (X : Fin 8192 → Fin 128 → EReal) (g : ℕ) (j : Fin 8192) : EReal :=
  Ideal.exp (Ideal.div (∑ k : Fin 128, a k * X j k) cT) * mask g j

def allDiv (a : Fin 128 → EReal) (X : Fin 8192 → Fin 128 → EReal) (g : ℕ) : EReal := ∑ j : Fin 8192, prob a X g j

def ratio (a b : Fin 128 → EReal) (X : Fin 8192 → Fin 128 → EReal) (g : ℕ) : EReal :=
  Ideal.div (pos a b) (allDiv a X g + cEps)

def rowA (a b : Fin 128 → EReal) (X : Fin 8192 → Fin 128 → EReal) (g : ℕ) : EReal :=
  (∑ j : Fin 8192, Ideal.log1p (-(Ideal.div (prob a X g j) (allDiv a X g + cEps)))) - Ideal.log1p (-(ratio a b X g))

def rowB (a b : Fin 128 → EReal) (X : Fin 8192 → Fin 128 → EReal) (g : ℕ) : EReal := Ideal.log (ratio a b X g)

/-- What the kernel stores for a row. -/
def rowK (a b : Fin 128 → EReal) (X : Fin 8192 → Fin 128 → EReal) (g : ℕ) : EReal := rowB a b X g + rowA a b X g * cOne

/-- The row paired with row `g`: half the batch further on, cyclically. -/
def partner (g : Fin 8192) : Fin 8192 := ⟨(g.val + 4096) % 8192, Nat.mod_lt _ (by norm_num)⟩

/-- Summing the stored row terms is summing the two parts separately: `+` is commutative and associative on
    the extended reals, and multiplying by `1` changes nothing. -/
theorem sum_rows (A B : Fin 8192 → EReal) :
    ∑ g : Fin 8192, (B g + A g * cOne) = (∑ g : Fin 8192, B g) + (∑ g : Fin 8192, A g) * cOne := by
  rw [cOne_eq]
  simp only [mul_one]
  exact Finset.sum_add_distrib

end Cert.RowSpec

end
-- ==== Proof.LibDotSum.lean ====
/-
  A contraction over ONE axis, re-indexed by that axis's coordinate.

  A matrix product's sum ranges over the contraction shape's index set; when one axis is contracted that set
  is in bijection with `Fin K`, and the sum becomes the familiar `∑ k : Fin K, L k * R k` once each operand
  is known at the operand indices.
-/
import Idealize.ShloMosaic.PureOps.Ideal
import Idealize.ShloMosaic.PureOps.Ideal.Laws
import Idealize.ShloMosaic.Lib.ValueIdx

noncomputable section

open scoped BigOperators

namespace Idealize.ShloMosaic.LibDotSum

open Idealize.ShloMosaic Idealize.ShloMosaic.ValueIdx

/-- The contraction sum of a one-axis dot as a sum over the contracted coordinate `k : Fin K`, given each
    operand's value at the operand index of `k`. -/
theorem sum_single {sl sr so : Shape} (D : DotDims sl sr so) (K : Nat) (hr : D.contr.rank = 1)
    (hs : D.contr.size ⟨0, by omega⟩ = K) (lhs : sl.Idx → EReal) (rhs : sr.Idx → EReal) (j : so.Idx)
    (L R : Fin K → EReal)
    (hl : ∀ k : Fin K, lhs (D.lhsIdx j ((contrEquiv1 D K hr hs).symm k)) = L k)
    (hrr : ∀ k : Fin K, rhs (D.rhsIdx j ((contrEquiv1 D K hr hs).symm k)) = R k) :
    ∑ q : D.contr.Idx, lhs (D.lhsIdx j q) * rhs (D.rhsIdx j q) = ∑ k : Fin K, L k * R k := by
  rw [← Equiv.sum_comp (contrEquiv1 D K hr hs).symm]
  exact Finset.sum_congr rfl fun k _ => by rw [hl k, hrr k]

/-- The left operand's coordinate on the single contracted axis is the contracted coordinate. -/
theorem lhs_contr_val {sl sr so : Shape} (D : DotDims sl sr so) (K : Nat) (hr : D.contr.rank = 1)
    (hs : D.contr.size ⟨0, by omega⟩ = K) {cl : Fin sl.rank} (hc : D.lhsContracting = [cl]) (j : so.Idx) (k : Fin K) :
    (D.lhsIdx j ((contrEquiv1 D K hr hs).symm k) cl).val = k.val :=
  (D.lhsIdx_val_of_single hc j _).trans (contrEquiv1_symm_val D K hr hs k)

/-- The right operand's coordinate on the single contracted axis is the contracted coordinate. -/
theorem rhs_contr_val {sl sr so : Shape} (D : DotDims sl sr so) (K : Nat) (hr : D.contr.rank = 1)
    (hs : D.contr.size ⟨0, by omega⟩ = K) {cr : Fin sr.rank} (hc : D.rhsContracting = [cr]) (j : so.Idx) (k : Fin K) :
    (D.rhsIdx j ((contrEquiv1 D K hr hs).symm k) cr).val = k.val :=
  (D.rhsIdx_val_of_single hc j _).trans (contrEquiv1_symm_val D K hr hs k)

end Idealize.ShloMosaic.LibDotSum

end
-- ==== Proof.LibMatmul2.lean ====
/-
  A matrix product of a `[M, K]` array by a `[K, N]` array, contracted over the one shared axis, read at `(p, q)`:
  the sum over `k` of the left operand at `(p, k)` times the right operand at `(k, q)`.
-/
import Idealize.ShloMosaic.PureOps.Ideal
import Idealize.ShloMosaic.PureOps.Ideal.Laws
import Idealize.ShloMosaic.Lib.ValueIdx
import proofs.«118030_j38843684225754_1_alg».proof.Proof.LibDotSum

noncomputable section

open scoped BigOperators

namespace Idealize.ShloMosaic.LibMatmul2

open Idealize.ShloMosaic Idealize.ShloMosaic.ValueIdx

/-- The contraction sum of a `[M, K] × [K, N]` product at `(p, q)`, over the contracted coordinate.  The two facts
    about the free axes (`hl0`, `hr1`: the left operand's row is the result's row, the right operand's column the result's
    column) are read off a program's literal dimension numbers. -/
theorem contr_sum {M K N : Nat} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (x : (⟨2, ![M, K]⟩ : Shape).Idx → EReal) (y : (⟨2, ![K, N]⟩ : Shape).Idx → EReal) (p : Fin M) (q : Fin N) :
    ∑ c : D.contr.Idx, x (D.lhsIdx (ix2 p q) c) * y (D.rhsIdx (ix2 p q) c) = ∑ k : Fin K, x (ix2 p k) * y (ix2 k q) := by
  refine LibDotSum.sum_single D K hr hs x y (ix2 p q) (fun k => x (ix2 p k)) (fun k => y (ix2 k q)) (fun k => ?_) (fun k => ?_)
  · refine congrArg x (funext fun a => Fin.ext ?_)
    match a with
    | ⟨0, _⟩ => exact hl0 _ _
    | ⟨1, _⟩ => exact LibDotSum.lhs_contr_val D K hr hs hlc _ k
  · refine congrArg y (funext fun a => Fin.ext ?_)
    match a with
    | ⟨0, _⟩ => exact LibDotSum.rhs_contr_val D K hr hs hrc _ k
    | ⟨1, _⟩ => exact hr1 _ _

/-- A kernel's matrix product into a zero accumulator, at `(p, q)`. -/
theorem matmul_zero_apply {M K N : Nat} {φ₁ φ₂ : FTy} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) :=
  (Ideal.matmul_constant_zero_apply D prec x y (ix2 p q)).trans (contr_sum D hr hs hlc hrc hl0 hr1 x y p q)

/-- The host's `dot_general` of the same shape, at `(p, q)`. -/
theorem dotGeneral_apply {M K N : Nat} {φ₁ φ₂ : FTy} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (prec : Option ContractPrecision) (x : FVec Ideal ⟨2, ![M, K]⟩ φ₁) (y : FVec Ideal ⟨2, ![K, N]⟩ φ₂) (p : Fin M) (q : Fin N) :
    Host.dotGeneral D prec x y (ix2 p q) = ∑ k : Fin K, x (ix2 p k) * y (ix2 k q) := by
  simp only [Host.dotGeneral]
  rw [Ideal.dotGeneral_apply]
  exact contr_sum D hr hs hlc hrc hl0 hr1 x y p q

end Idealize.ShloMosaic.LibMatmul2

end
-- ==== Proof.LibColumn.lean ====
/-
  Keepdims columns.

  A vector of `a` entries viewed as a column `[a, 1]` holds entry `i` at `(i, 0)`: the row-major position of `(i, u)` in
  `[a, 1]` is `i · 1 + u = i`.
-/
import Idealize.ShloMosaic.Lib.Pipeline.Value
import Idealize.ShloMosaic.Lib.ValueIdx

namespace Idealize.ShloMosaic.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.LibColumn
-- ==== Proof.KIVal.lean ====
import proofs.«118030_j38843684225754_1_alg».proof.Proof.Gen.KernelIdeal.Skeleton
import proofs.«118030_j38843684225754_1_alg».proof.Proof.RowSpec
import proofs.«118030_j38843684225754_1_alg».proof.Proof.LibMatmul2
import proofs.«118030_j38843684225754_1_alg».proof.Proof.LibColumn
import Idealize.ShloMosaic.Lib.ValueIdx
import Idealize.ShloMosaic.Lib.Pipeline.Value
import Idealize.ShloMosaic.PureOps.Ideal.Laws

/-!
  The kernel body's arithmetic at an index, on the extended reals: from a 128-row tile `x0`, the tile of the paired
  rows `x1` and the whole matrix `x8`, the body's stored column holds at row `r` the row term `RowSpec.rowK` of
  row `r` of `x0`, row `r` of `x1`, all rows of `x8`, masked at column `128 · i + r`.
-/

noncomputable section

open scoped BigOperators

namespace Cert.KernelIdeal.Val

open Cert.KernelIdeal Cert.KernelIdeal.Gen Idealize.ShloMosaic Idealize.ShloMosaic.ValueIdx Cert.RowSpec

/-- Row `r` of a tile, all rows of the matrix, and the global row of tile row `r` at grid point `i`. -/
def trow (x0 : S128x128.Idx → EReal) (r : Fin 128) : Fin 128 → EReal := fun k => x0 (ix2 r k)
def arows (x8 : S8192x128.Idx → EReal) : Fin 8192 → Fin 128 → EReal := fun j k => x8 (ix2 j k)
def gidx (i : grid0.Coords) (r : Fin 128) : ℕ := (i 0).val * 128 + r.val

theorem coord_lt (i : grid0.Coords) : (i 0).val < 64 := (i 0).isLt

abbrev DD : DotDims S128x128 S128x8192 S128x8192 := dot_S128x128_S128x8192_S128x8192_1_0_0_1_n_n

theorem dd_l0 (j : S128x8192.Idx) (q : DD.contr.Idx) : (DD.lhsIdx j q 0).val = (j 0).val := by
  unfold DotDims.lhsIdx
  rw [dif_neg (show ¬(0 : Fin S128x128.rank) ∈ DD.lhsBatch by decide), dif_pos (show (0 : Fin S128x128.rank) ∈ DD.lhsNonContracting by decide)]
  rfl

theorem dd_r1 (j : S128x8192.Idx) (q : DD.contr.Idx) : (DD.rhsIdx j q 1).val = (j 1).val := by
  unfold DotDims.rhsIdx
  rw [dif_neg (show ¬(1 : Fin S128x8192.rank) ∈ DD.rhsBatch by decide), dif_pos (show (1 : Fin S128x8192.rank) ∈ DD.rhsNonContracting by decide)]
  rfl

/-- The similarity products: the tile against the transposed matrix, at `(r, j)`, is the inner product of tile row `r`
    with matrix row `j` (the change of format is the identity). -/
theorem mm_apply (x0 : FVec Ideal S128x128 .f32) (x8 : FVec Ideal S8192x128 .f32) (r : Fin 128) (j : Fin 8192) :
    matmul DD none (truncf .bf16 x0 bitsLt_bf16_f32) (transpose S128x8192 [1, 0] (truncf .bf16 x8 bitsLt_bf16_f32) transposes_S8192x128_p1_0_S128x8192)
      (constant S128x8192 .f32 0x00000000#32) (ix2 r j) = ∑ k : Fin 128, x0 (ix2 r k) * x8 (ix2 j k) := by
  refine (LibMatmul2.matmul_zero_apply DD rfl rfl rfl rfl dd_l0 dd_r1 none _ _ r j).trans ?_
  refine Finset.sum_congr rfl fun k _ => ?_
  congr 1
  exact transpose_apply [1, 0] _ transposes_S8192x128_p1_0_S128x8192 (ix2 k j) (ix2 j k) (fun b => by match b with | ⟨0, _⟩ => rfl | ⟨1, _⟩ => rfl)

/-- The diagonal mask at `(r, j)`: zero where the column is the row's own global index. -/
theorem mask_apply (i : grid0.Coords) (r : Fin 128) (j : Fin 8192) :
    (sitofp .f32 (extui 32 (cmpi .ne (addi (broadcast S128x8192 (Scalar.muli (BitVec.ofNat 32 (i 0).val) 128#32)) (iota .tc S128x8192 32 [0] iota_S128x8192_d0_w32))
        (iota .tc S128x8192 32 [1] iota_S128x8192_d1_w32)) natLt_1_32) : FVec Ideal S128x8192 .f32) (ix2 r j) = mask (gidx i r) j := by
  have hi := coord_lt i
  have hr := r.isLt
  have hj := j.isLt
  show FloatOps.sitofp (F := Ideal) .f32 ((IntOp.cmpi .ne (IntOp.addi (Scalar.muli (BitVec.ofNat 32 (i 0).val) 128#32) (BitVec.ofNat 32 (0 * 128 + r.val))) (BitVec.ofNat 32 (0 * 8192 + j.val))).setWidth 32) = _
  have e1 : IntOp.addi (Scalar.muli (BitVec.ofNat 32 (i 0).val) 128#32) (BitVec.ofNat 32 (0 * 128 + r.val)) = BitVec.ofNat 32 (gidx i r) := by
    unfold IntOp.addi Scalar.muli IntOp.muli gidx
    apply BitVec.eq_of_toNat_eq
    simp only [BitVec.toNat_add, BitVec.toNat_mul, BitVec.toNat_ofNat]
    omega
  rw [e1, show (0 * 8192 + j.val) = j.val from by omega]
  unfold mask IntOp.cmpi
  by_cases h : gidx i r = j.val
  · rw [if_pos h, h]
    simp only [bne_self_eq_false, BitVec.ofBool_false]
    show (((BitVec.setWidth 32 (0#1)).toInt : ℝ) : EReal) = 0
    rw [show (BitVec.setWidth 32 (0#1)).toInt = 0 from by decide]
    simp
  · rw [if_neg h]
    have hne : (BitVec.ofNat 32 (gidx i r) != BitVec.ofNat 32 j.val) = true := by
      rw [bne_iff_ne]
      intro e
      have := congrArg BitVec.toNat e
      simp only [BitVec.toNat_ofNat] at this
      unfold gidx at this h
      omega
    rw [hne]
    simp only [BitVec.ofBool_true]
    show (((BitVec.setWidth 32 (1#1)).toInt : ℝ) : EReal) = 1
    rw [show (BitVec.setWidth 32 (1#1)).toInt = 1 from by decide]
    simp

/-! ## The payloads at an index -/

theorem lift128 (r : Fin 128) (k : Fin 128) : reduces_S128x128_S128.lift (ix1 r) k = ix2 r k :=
  funext fun c => Fin.ext (by match c with | ⟨0, _⟩ => rfl | ⟨1, _⟩ => rfl)

theorem lift8192 (r : Fin 128) (k : Fin 8192) : reduces_S128x8192_S128.lift (ix1 r) k = ix2 r k :=
  funext fun c => Fin.ext (by match c with | ⟨0, _⟩ => rfl | ⟨1, _⟩ => rfl)

/-- A column `[128, 1]` spread along 8192 lanes reads, at `(r, k)`, the column at `(r, 0)`. -/
theorem bcast_col (y : S128x1.Idx → EReal) (r : Fin 128) (k : Fin 8192) :
    broadcastTo S128x8192 y broadcasts_S128x1_S128x8192 (ix2 r k) = y (ix2 r (0 : Fin 1)) :=
  broadcastTo_apply y broadcasts_S128x1_S128x8192 (ix2 r k) (ix2 r (0 : Fin 1)) (fun a => by match a with | ⟨0, _⟩ => rfl | ⟨1, _⟩ => rfl)

/-- A lane sum of a `[128, 8192]` array at row `r`, and of a `[128, 128]` one. -/
theorem lane_sum8192 (v : FVec Ideal S128x8192 .f32) (r : Fin 128) (hφ : FKind.Formats FTy.f32)
    (hacc : (0x00000000#32 : BitVec FTy.f32.bits) = FKind.add.neutral FTy.f32 hφ) :
    multiReduction (F := Ideal) .add [1] S128 v 0x00000000#32 reduces_S128x8192_S128 hφ hacc (ix1 r) = ∑ k : Fin 8192, v (ix2 r k) :=
  (Ideal.multiReduction_add_single v 0x00000000#32 reduces_S128x8192_S128 hφ hacc (ix1 r)).trans
    (Finset.sum_congr rfl fun k _ => congrArg v (lift8192 r k))

theorem lane_sum128 (v : FVec Ideal S128x128 .f32) (r : Fin 128) (hφ : FKind.Formats FTy.f32)
    (hacc : (0x00000000#32 : BitVec FTy.f32.bits) = FKind.add.neutral FTy.f32 hφ) :
    multiReduction (F := Ideal) .add [1] S128 v 0x00000000#32 reduces_S128x128_S128 hφ hacc (ix1 r) = ∑ k : Fin 128, v (ix2 r k) :=
  (Ideal.multiReduction_add_single v 0x00000000#32 reduces_S128x128_S128 hφ hacc (ix1 r)).trans
    (Finset.sum_congr rfl fun k _ => congrArg v (lift128 r k))

/-- The masked exponentials. -/
theorem pay2_apply (i : grid0.Coords) (x0 : Vec Ideal S128x128 .f32) (x8 : Vec Ideal S8192x128 .f32) (r : Fin 128) (j : Fin 8192) :
    k0_pay2 (F := Ideal) i x0 x8 (ix2 r j) = prob (trow x0 r) (arows x8) (gidx i r) j := by
  unfold k0_pay2
  show Ideal.exp (Ideal.div (matmul (F := Ideal) DD none (truncf .bf16 x0 bitsLt_bf16_f32) (transpose S128x8192 [1, 0] (truncf .bf16 x8 bitsLt_bf16_f32) transposes_S8192x128_p1_0_S128x8192) (constant S128x8192 .f32 0x00000000#32) (ix2 r j)) cT)
      * (sitofp .f32 (extui 32 (cmpi .ne (addi (broadcast S128x8192 (Scalar.muli (BitVec.ofNat 32 (i 0).val) 128#32)) (iota .tc S128x8192 32 [0] iota_S128x8192_d0_w32)) (iota .tc S128x8192 32 [1] iota_S128x8192_d1_w32)) natLt_1_32) : FVec Ideal S128x8192 .f32) (ix2 r j) = _
  rw [mm_apply, mask_apply]
  rfl

/-- Their row sums. -/
theorem pay3_apply (i : grid0.Coords) (x0 : Vec Ideal S128x128 .f32) (x8 : Vec Ideal S8192x128 .f32) (r : Fin 128) :
    k0_pay3 (F := Ideal) i x0 x8 (ix1 r) = allDiv (trow x0 r) (arows x8) (gidx i r) := by
  unfold k0_pay3
  refine (lane_sum8192 (k0_pay2 (F := Ideal) i x0 x8) r _ _).trans ?_
  unfold allDiv
  exact Finset.sum_congr rfl fun k _ => pay2_apply i x0 x8 r k

/-- The pair ratio. -/
theorem pay4_apply (i : grid0.Coords) (x0 x1 : Vec Ideal S128x128 .f32) (x8 : Vec Ideal S8192x128 .f32) (r : Fin 128) :
    k0_pay4 (F := Ideal) i x0 x1 x8 (ix1 r) = ratio (trow x0 r) (trow x1 r) (arows x8) (gidx i r) := by
  unfold k0_pay4
  show Ideal.div (Ideal.exp (Ideal.div (multiReduction (F := Ideal) .add [1] S128 (mulf x0 x1) 0x00000000#32 reduces_S128x128_S128 (.inl rfl) rfl (ix1 r)) cT))
      (k0_pay3 (F := Ideal) i x0 x8 (ix1 r) + cEps) = _
  have hs := lane_sum128 (mulf x0 x1) r (.inl rfl) rfl
  rw [pay3_apply]
  unfold ratio pos
  exact congrArg (fun s => Ideal.div (Ideal.exp (Ideal.div s cT)) (allDiv (trow x0 r) (arows x8) (gidx i r) + cEps)) hs

/-- The sum over the other rows of log(1 − normalised similarity), less log(1 − ratio). -/
theorem pay5_apply (i : grid0.Coords) (x0 x1 : Vec Ideal S128x128 .f32) (x8 : Vec Ideal S8192x128 .f32) (r : Fin 128) :
    k0_pay5 (F := Ideal) i x0 x1 x8 (ix1 r) = rowA (trow x0 r) (trow x1 r) (arows x8) (gidx i r) := by
  unfold k0_pay5
  show multiReduction (F := Ideal) .add [1] S128 (log1p (subf (broadcast S128x8192 (Scalar.ofBits (F := Ideal) .f32 0x00000000#32)) (divf (k0_pay2 (F := Ideal) i x0 x8)
        (broadcastTo S128x8192 (addf (shapeCast S128x1 (k0_pay3 (F := Ideal) i x0 x8) shapeCasts_S128_S128x1) (broadcast S128x1 (Scalar.ofBits (F := Ideal) .f32 0x2EDBE6FF#32))) broadcasts_S128x1_S128x8192))))
        0x00000000#32 reduces_S128x8192_S128 (.inl rfl) rfl (ix1 r)
      - Ideal.log1p (Ideal.ofBits .f32 0x00000000#32 - k0_pay4 (F := Ideal) i x0 x1 x8 (ix1 r)) = _
  refine (congrArg₂ (· - ·) (lane_sum8192 _ r (.inl rfl) rfl) rfl).trans ?_
  rw [pay4_apply, Ideal.ofBits_zero_f32, zero_sub]
  unfold rowA
  refine congrArg (· - Ideal.log1p (-ratio (trow x0 r) (trow x1 r) (arows x8) (gidx i r))) ?_
  refine Finset.sum_congr rfl fun k _ => ?_
  show Ideal.log1p (Ideal.ofBits .f32 0x00000000#32 - Ideal.div (k0_pay2 (F := Ideal) i x0 x8 (ix2 r k))
      (broadcastTo S128x8192 (addf (shapeCast S128x1 (k0_pay3 (F := Ideal) i x0 x8) shapeCasts_S128_S128x1) (broadcast S128x1 (Scalar.ofBits (F := Ideal) .f32 0x2EDBE6FF#32))) broadcasts_S128x1_S128x8192 (ix2 r k))) = _
  rw [bcast_col]
  show Ideal.log1p (Ideal.ofBits .f32 0x00000000#32 - Ideal.div (k0_pay2 (F := Ideal) i x0 x8 (ix2 r k))
      (shapeCast S128x1 (k0_pay3 (F := Ideal) i x0 x8) shapeCasts_S128_S128x1 (ix2 r (0 : Fin 1)) + cEps)) = _
  rw [LibColumn.shapeCast_a_a1_apply, pay2_apply, pay3_apply, Ideal.ofBits_zero_f32, zero_sub]

/-- The log of the pair ratio. -/
theorem pay6_apply (i : grid0.Coords) (x0 x1 : Vec Ideal S128x128 .f32) (x8 : Vec Ideal S8192x128 .f32) (r : Fin 128) :
    k0_pay6 (F := Ideal) i x0 x1 x8 (ix1 r) = rowB (trow x0 r) (trow x1 r) (arows x8) (gidx i r) := by
  unfold k0_pay6
  show Ideal.log (k0_pay4 (F := Ideal) i x0 x1 x8 (ix1 r)) = _
  rw [pay4_apply]
  rfl

/-- The stored column: the two row vectors added (the first times one) and stood up as a column. -/
theorem pay1_apply (v40 v41 : FVec Ideal S128 .f32) (r : Fin 128) (u : Fin 1) :
    k0_pay1 (F := Ideal) v40 v41 (ix2 r u) = v41 (ix1 r) + v40 (ix1 r) * cOne := by
  unfold k0_pay1
  show shapeCast S128x1 (addf v41 (mulf v40 (broadcast S128 (Scalar.ofBits (F := Ideal) .f32 0x3F800000#32)))) shapeCasts_S128_S128x1 (ix2 r u) = _
  rw [LibColumn.shapeCast_a_a1_apply]
  rfl

/-- THE STORED COLUMN at row `r`: the row term of tile row `r`. -/
theorem stored_apply (i : grid0.Coords) (x0 x1 : Vec Ideal S128x128 .f32) (x8 : Vec Ideal S8192x128 .f32) (r : Fin 128) (u : Fin 1) :
    k0_pay1 (F := Ideal) (k0_pay5 (F := Ideal) i x0 x1 x8) (k0_pay6 (F := Ideal) i x0 x1 x8) (ix2 r u)
      = rowK (trow x0 r) (trow x1 r) (arows x8) (gidx i r) := by
  rw [pay1_apply, pay5_apply, pay6_apply]
  rfl

end Cert.KernelIdeal.Val

end
-- ==== Proof.KIFinal.lean ====
import proofs.«118030_j38843684225754_1_alg».proof.Proof.KIRun
import proofs.«118030_j38843684225754_1_alg».proof.Proof.KIVal
import Idealize.ShloMosaic.Lib.StableHlo.Run

/-!
  From the tiles to the whole column, and on to the loss.

  Grid point `t` writes rows `128 t … 128 t + 127` of the output column.  Its three input blocks are rows
  `128 t + r` of the matrix, the paired rows `128 ((t + 32) mod 64) + r = (128 t + r + 4096) mod 8192`, and the whole
  matrix; so what it writes is the restriction to its rows of ONE column `rowCol` of the matrix: at row `g` the row
  term of row `g`, its paired row and all rows, masked at column `g`.  The 64 tiles cover the column, so after the
  region the output array is `rowCol`, and the host operations return minus its sum over the batch size.
-/

set_option maxRecDepth 16384

noncomputable section

open scoped BigOperators

namespace Cert.KernelIdeal.Hand

open Cert.KernelIdeal Cert.KernelIdeal.Gen Cert.KernelIdeal.Val Cert.RowSpec
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- Row `g` of the matrix. -/
def xrow (x : S8192x128.Idx → EReal) (g : Fin 8192) : Fin 128 → EReal := fun k => x (ix2 g k)

/-- The output column as one function of the matrix. -/
def rowCol (x : S8192x128.Idx → EReal) : S8192x1.Idx → EReal :=
  fun y => rowK (xrow x (y 0)) (xrow x (partner (y 0))) (arows x) (y 0).val

theorem hz : (![0, 0] : Fin 2 → Nat) = fun _ => 0 := funext fun a => by fin_cases a <;> rfl

/-- The printed index maps in closed form, decided over the grid. -/
theorem idx_facts : ∀ t : Fin cfg0.N, win0_0.index t (0 : Fin 2) = t.val ∧ win0_0.index t (1 : Fin 2) = 0
    ∧ win0_1.index t (0 : Fin 2) = (t.val + 32) % 64 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ ((grid0.coords t) 0).val = t.val :=
  (by decide +kernel : ∀ t : Fin grid0.N, _)

/-- The global row of tile row `r` at point `t`. -/
def grow (t : Fin cfg0.N) (r : Fin 128) : Fin 8192 := ⟨t.val * 128 + r.val, by have := t.isLt; have := r.isLt; show _ < 8192; have : t.val < 64 := t.isLt; omega⟩

/-- The tile of rows: block `t` of the first window. -/
theorem blk0_apply (c : Dev nD) (t : Fin cfg0.N) (r k : Fin 128) :
    iblk m c 0 t (ix2 r k) = V m c main_arg0 (ix2 (grow t r) k) := by
  obtain ⟨e0, e1, -⟩ := idx_facts t
  show V m c main_arg0 (((cfg0.win 0).blk t).view.emb (ix2 r k)) = _
  refine congrArg _ (funext fun a => Fin.ext ?_)
  match a with
  | ⟨0, _⟩ => show win0_0.index t (0 : Fin 2) * 128 + 1 * r.val = t.val * 128 + r.val; rw [e0]; omega
  | ⟨1, _⟩ => show win0_0.index t (1 : Fin 2) * 128 + 1 * k.val = k.val; rw [e1]; omega

/-- The tile of paired rows: block `t` of the second window. -/
theorem blk1_apply (c : Dev nD) (t : Fin cfg0.N) (r k : Fin 128) :
    iblk m c 1 t (ix2 r k) = V m c main_arg0 (ix2 (partner (grow t r)) k) := by
  obtain ⟨-, -, e2, e3, -⟩ := idx_facts t
  have ht : t.val < 64 := t.isLt
  have hr := r.isLt
  show V m c main_arg0 (((cfg0.win 1).blk t).view.emb (ix2 r k)) = _
  refine congrArg _ (funext fun a => Fin.ext ?_)
  match a with
  | ⟨0, _⟩ => show win0_1.index t (0 : Fin 2) * 128 + 1 * r.val = (t.val * 128 + r.val + 4096) % 8192; rw [e2]; omega
  | ⟨1, _⟩ => show win0_1.index t (1 : Fin 2) * 128 + 1 * k.val = k.val; rw [e3]; omega

/-- The whole matrix: the one block of the third window. -/
theorem blk2_apply (c : Dev nD) (t : Fin cfg0.N) (j : Fin 8192) (k : Fin 128) :
    iblk m c 2 t (ix2 j k) = V m c main_arg0 (ix2 j k) := by
  obtain ⟨-, -, -, -, e4, e5, -⟩ := idx_facts t
  show V m c main_arg0 (((cfg0.win 2).blk t).view.emb (ix2 j k)) = _
  refine congrArg _ (funext fun a => Fin.ext ?_)
  match a with
  | ⟨0, _⟩ => show win0_2.index t (0 : Fin 2) * 8192 + 1 * j.val = j.val; rw [e4]; omega
  | ⟨1, _⟩ => show win0_2.index t (1 : Fin 2) * 128 + 1 * k.val = k.val; rw [e5]; omega

/-- WHAT POINT `t` WRITES BACK is block `t` of the column `rowCol` of the matrix as the region finds it. -/
theorem flushed_eq (c : Dev nD) (t : Fin cfg0.N) :
    (dats m 0 c).flushed 3 t = ((cfg0.win 3).blk t).view.read (Elt Ideal) (rowCol (V m c main_arg0)) := by
  show (cfg0.win 3).cut (grid0.coords t) ((dats m 0 c).after 3 t) = _
  rw [after0_3]
  unfold rowTerm
  rw [View.canon_unit_zero hz]
  simp only [View.ld_unit_zero (S := S128x128) hz, View.ld_unit_zero (S := S8192x128) hz]
  obtain ⟨-, -, -, -, -, -, e6, e7, e8⟩ := idx_facts t
  funext y
  obtain ⟨r, u, rfl⟩ : ∃ (r : Fin 128) (u : Fin 1), y = ix2 r u := ⟨y 0, y 1, eq_ix2 y⟩
  show k0_pay1 (F := Ideal) (k0_pay5 (F := Ideal) (grid0.coords t) (iblk m c 0 t) (iblk m c 1 t) (iblk m c 2 t))
      (k0_pay6 (F := Ideal) (grid0.coords t) (iblk m c 0 t) (iblk m c 1 t) (iblk m c 2 t)) (ix2 r u)
    = rowCol (V m c main_arg0) (((cfg0.win 3).blk t).view.emb (ix2 r u))
  rw [stored_apply]
  have hy : ((((cfg0.win 3).blk t).view.emb (ix2 r u)) 0) = grow t r :=
    Fin.ext (by show win0_3.index t (0 : Fin 2) * 128 + 1 * r.val = t.val * 128 + r.val; rw [e6]; omega)
  unfold rowCol
  rw [hy]
  have h0 : trow (iblk m c 0 t) r = xrow (V m c main_arg0) (grow t r) := funext fun k => blk0_apply m c t r k
  have h1 : trow (iblk m c 1 t) r = xrow (V m c main_arg0) (partner (grow t r)) := funext fun k => blk1_apply m c t r k
  have h2 : arows (iblk m c 2 t) = arows (V m c main_arg0) := funext fun j => funext fun k => blk2_apply m c t j k
  have hg : gidx (grid0.coords t) r = (grow t r).val := by unfold gidx grow; rw [e8]
  rw [h0, h1, h2, hg]

/-- An index of the column is in point `t`'s block iff its row is one of the block's 128. -/
theorem mem_blk (t : Fin cfg0.N) (i : S8192x1.Idx) :
    i ∈ ((cfg0.win 3).blk t).view.set ↔ ∀ a : Fin 2, win0_3.index t a * S128x1.size a ≤ (i a).val ∧ (i a).val < win0_3.index t a * S128x1.size a + S128x1.size a := by
  show i ∈ ((View.whole main_v0).slice (win0_3.rect t)).set ↔ _
  rw [View.set_slice_whole, Rect.mem_set_unit]
  exact Iff.rfl

/-- The 64 blocks cover the column: row `g` is in block `g / 128`. -/
theorem covered (i : S8192x1.Idx) : ∃ t : Fin cfg0.N, (cfg0.win 3).flush t = true ∧ i ∈ ((cfg0.win 3).blk t).view.set := by
  have hi0 : (i 0).val < 8192 := (i 0).isLt
  have hi1 : (i 1).val < 1 := (i 1).isLt
  let t : Fin cfg0.N := ⟨(i 0).val / 128, by show _ < 64; omega⟩
  obtain ⟨-, -, -, -, -, -, e6, e7, -⟩ := idx_facts t
  refine ⟨t, flush0_3 t, ?_⟩
  rw [mem_blk]
  intro a
  match a with
  | ⟨0, _⟩ => show win0_3.index t (0 : Fin 2) * 128 ≤ (i 0).val ∧ (i 0).val < win0_3.index t (0 : Fin 2) * 128 + 128; rw [e6]; show (i 0).val / 128 * 128 ≤ _ ∧ _ < (i 0).val / 128 * 128 + 128; omega
  | ⟨1, _⟩ => show win0_3.index t (1 : Fin 2) * 1 ≤ (i 1).val ∧ (i 1).val < win0_3.index t (1 : Fin 2) * 1 + 1; rw [e7]; omega

/-- THE OUTPUT ARRAY after the region: the column `rowCol` of the argument. -/
theorem outArr_eq (c : Dev nD) : outArr m c = rowCol (m ((c : Thread nD τ).loc main_arg0)) :=
  (dats m 0 c).arrAt_eq_of_cover 3 (rowCol (V m c main_arg0)) (fun t _ => flushed_eq m c t) covered

end Cert.KernelIdeal.Hand

end
-- ==== Proof.RefRows.lean ====
import proofs.«118030_j38843684225754_1_alg».proof.Proof.Gen.ReferenceIdeal.Read
import proofs.«118030_j38843684225754_1_alg».proof.Proof.RowSpec
import Idealize.ShloMosaic.Lib.ValueIdx
import Idealize.ShloMosaic.Lib.Pipeline.Value
import Idealize.ShloMosaic.PureOps.Ideal.Laws

/-!
  The reference, stage by stage, against the row specification: its pair products, its masked similarities, its
  row sums and its two per-row terms are `RowSpec`'s functions of row `g`, its paired row and all rows.
-/

set_option maxRecDepth 1000000

noncomputable section

open scoped BigOperators

namespace Cert.RefRows

open Cert.ReferenceIdeal Cert.ReferenceIdeal.Gen Cert.ReferenceIdeal.Read Idealize.ShloMosaic Idealize.ShloMosaic.ValueIdx Cert.RowSpec

/-- Row `g` of the embedding matrix, and all its rows. -/
def row (x : S8192x128.Idx → EReal) (g : Fin 8192) : Fin 128 → EReal := fun k => x (ix2 g k)
def rows (x : S8192x128.Idx → EReal) : Fin 8192 → Fin 128 → EReal := fun j k => x (ix2 j k)

/-- The rolled copy of the matrix (its second half followed by its first) holds at row `g` the paired row. -/
theorem rolled_apply (x : S8192x128.Idx → EReal) (g : Fin 8192) (k : Fin 128) :
    val_main_v2 (F := Ideal) x (ix2 g k) = x (ix2 (partner g) k) := by
  unfold val_main_v2
  by_cases hg : g.val < 4096
  · rw [concatenate_apply_piece (t := S8192x128) (0 : Fin 2) [⟨S4096x128, val_main_v0 (F := Ideal) x⟩, ⟨S4096x128, val_main_v1 (F := Ideal) x⟩] concatenates_S4096x128_S4096x128_S8192x128_d0 (ix2 g k) 0 (Nat.zero_lt_succ _) S4096x128
      (val_main_v0 (F := Ideal) x) rfl rfl 0 rfl (ix2 (⟨g.val, hg⟩ : Fin 4096) k)
      (fun b hb => by match b with | ⟨0, _⟩ => exact absurd rfl hb | ⟨1, _⟩ => rfl) (by show 0 + g.val = g.val; omega)]
    rw [val_main_v0_apply]
    refine congrArg x (funext fun a => Fin.ext ?_)
    match a with
    | ⟨0, _⟩ => show 4096 + g.val = (g.val + 4096) % 8192; omega
    | ⟨1, _⟩ => rfl
  · have hg' : g.val - 4096 < 4096 := by have := g.isLt; omega
    rw [concatenate_apply_piece (t := S8192x128) (0 : Fin 2) [⟨S4096x128, val_main_v0 (F := Ideal) x⟩, ⟨S4096x128, val_main_v1 (F := Ideal) x⟩] concatenates_S4096x128_S4096x128_S8192x128_d0 (ix2 g k) 1 (Nat.succ_lt_succ (Nat.zero_lt_succ _)) S4096x128
      (val_main_v1 (F := Ideal) x) rfl rfl 4096 rfl (ix2 (⟨g.val - 4096, hg'⟩ : Fin 4096) k)
      (fun b hb => by match b with | ⟨0, _⟩ => exact absurd rfl hb | ⟨1, _⟩ => rfl) (by show 4096 + (g.val - 4096) = g.val; omega)]
    rw [val_main_v1_apply]
    refine congrArg x (funext fun a => Fin.ext ?_)
    match a with
    | ⟨0, _⟩ => show g.val - 4096 = (g.val + 4096) % 8192; have := g.isLt; omega
    | ⟨1, _⟩ => rfl

theorem idx4 (g : Fin 8192) (k : Fin 128) : idx_main_v4 (ix1 g) k = ix2 g k :=
  funext fun a => by match a with | ⟨0, _⟩ => rfl | ⟨1, _⟩ => rfl

/-- The pair term of row `g`. -/
theorem pos_eq (x : S8192x128.Idx → EReal) (g : Fin 8192) :
    val_main_v7 (F := Ideal) x (ix1 g) = pos (row x g) (row x (partner g)) := by
  rw [val_main_v7_apply, val_main_v6_apply, val_main_v4_apply, val_main_v5_apply, val_main_cst_0_apply, val_main_cst_apply]
  simp only [idx4, val_main_v3_apply, rolled_apply, Ideal.hostUnary_exp_def, Ideal.hostDivf_def, Ideal.mulf_def, Ideal.ofBits_def,
    Ideal.ofBits_zero_f32, zero_add]
  rfl

/-! ## The masked similarities -/

theorem lidx9 (g j : Fin 8192) (k : Fin 128) : lidx_main_v9 (ix2 g j) k = ix2 g k :=
  funext fun a => by match a with | ⟨0, _⟩ => rfl | ⟨1, _⟩ => rfl

theorem ridx9 (g j : Fin 8192) (k : Fin 128) : idx_main_v8 (ridx_main_v9 (ix2 g j) k) = ix2 j k :=
  funext fun a => by match a with | ⟨0, _⟩ => rfl | ⟨1, _⟩ => rfl

/-- The reference's mask, one minus the identity matrix, is the mask of the diagonal. -/
theorem mask_ref (g j : Fin 8192) :
    FloatOps.subf (F := Ideal) (FloatOps.ofBits .f32 0x3F800000#32)
      (FloatOps.uitofp .f32 (IntOp.cmpi .eq (IntOp.addi (BitVec.ofNat 32 g.val) 0#32) (BitVec.ofNat 32 j.val))) = mask g.val j := by
  have hg := g.isLt
  have hj := j.isLt
  have e1 : IntOp.addi (BitVec.ofNat 32 g.val) 0#32 = BitVec.ofNat 32 g.val := by unfold IntOp.addi; simp
  rw [e1]
  show cOne - (((IntOp.cmpi .eq (BitVec.ofNat 32 g.val) (BitVec.ofNat 32 j.val)).toNat : ℝ) : EReal) = _
  rw [cOne_eq]
  unfold mask IntOp.cmpi
  by_cases h : g.val = j.val
  · rw [if_pos h, h]
    simp only [beq_self_eq_true, BitVec.ofBool_true]
    show (1 : EReal) - (((1 : ℕ) : ℝ) : EReal) = 0
    rw [Nat.cast_one, EReal.coe_one]
    exact EReal.sub_self (by decide) (by decide)
  · rw [if_neg h]
    have hne : (BitVec.ofNat 32 g.val == BitVec.ofNat 32 j.val) = false := by
      rw [beq_eq_false_iff_ne]
      intro e
      have := congrArg BitVec.toNat e
      simp only [BitVec.toNat_ofNat] at this
      omega
    rw [hne]
    simp only [BitVec.ofBool_false]
    show (1 : EReal) - (((0 : ℕ) : ℝ) : EReal) = 1
    rw [Nat.cast_zero, EReal.coe_zero, sub_zero]

theorem prob_eq (x : S8192x128.Idx → EReal) (g j : Fin 8192) :
    val_main_v21 (F := Ideal) x (ix2 g j) = prob (row x g) (rows x) g.val j := by
  rw [val_main_v21_apply, val_main_v12_apply, val_main_v11_apply, val_main_v9_apply, val_main_v10_apply, val_main_cst_1_apply,
    val_main_v20_apply, val_main_v19_apply, val_main_cst_2_apply, val_main_v18_apply, val_main_v17_apply, val_main_v16_apply,
    val_main_v13_apply, val_main_v15_apply, val_main_c_apply, val_main_v14_apply]
  rw [show (BitVec.ofNat 32 ((ix2 g j : S8192x8192.Idx) 0).val) = BitVec.ofNat 32 g.val from rfl,
    show (BitVec.ofNat 32 ((ix2 g j : S8192x8192.Idx) 1).val) = BitVec.ofNat 32 j.val from rfl, mask_ref]
  simp only [lidx9, val_main_v8_apply, ridx9, Ideal.hostUnary_exp_def, Ideal.hostDivf_def, Ideal.mulf_def, Ideal.ofBits_def]
  rfl

theorem idx22 (g : Fin 8192) (k : Fin 8192) : idx_main_v22 (ix1 g) k = ix2 g k :=
  funext fun a => by match a with | ⟨0, _⟩ => rfl | ⟨1, _⟩ => rfl

theorem idx33 (g : Fin 8192) (k : Fin 8192) : idx_main_v33 (ix1 g) k = ix2 g k :=
  funext fun a => by match a with | ⟨0, _⟩ => rfl | ⟨1, _⟩ => rfl

theorem allDiv_eq (x : S8192x128.Idx → EReal) (g : Fin 8192) :
    val_main_v22 (F := Ideal) x (ix1 g) = allDiv (row x g) (rows x) g.val := by
  rw [val_main_v22_apply, val_main_cst_3_apply]
  simp only [idx22, prob_eq, Ideal.ofBits_def, Ideal.ofBits_zero_f32, zero_add]
  rfl

theorem ratio_eq (x : S8192x128.Idx → EReal) (g : Fin 8192) :
    val_main_v25 (F := Ideal) x (ix1 g) = ratio (row x g) (row x (partner g)) (rows x) g.val := by
  rw [val_main_v25_apply, val_main_v24_apply, val_main_v23_apply, val_main_cst_4_apply, pos_eq, allDiv_eq]
  rfl

theorem idx29 (g k : Fin 8192) : idx_main_v26 (idx_main_v29 (ix2 g k)) = ix1 g :=
  funext fun a => by match a with | ⟨0, _⟩ => rfl

theorem rowB_eq (x : S8192x128.Idx → EReal) (g : Fin 8192) :
    val_main_v37 (F := Ideal) x (ix1 g) = rowB (row x g) (row x (partner g)) (rows x) g.val := by
  rw [val_main_v37_apply, ratio_eq]
  rfl

theorem rowA_eq (x : S8192x128.Idx → EReal) (g : Fin 8192) :
    val_main_v36 (F := Ideal) x (ix1 g) = rowA (row x g) (row x (partner g)) (rows x) g.val := by
  rw [val_main_v36_apply, val_main_v33_apply, val_main_cst_6_apply, val_main_v35_apply, val_main_v34_apply, ratio_eq]
  simp only [idx33, val_main_v32_apply, val_main_v31_apply, val_main_v30_apply, prob_eq, val_main_v29_apply, val_main_v28_apply,
    val_main_v26_apply, idx29, allDiv_eq, val_main_v27_apply, val_main_cst_5_apply, Ideal.hostUnary_log1p_def, Ideal.hostNegf_def,
    Ideal.negf_def, Ideal.hostDivf_def, Ideal.addf_def, Ideal.subf_def, Ideal.ofBits_def, Ideal.ofBits_zero_f32, zero_add]
  rfl

/-! ## The two sums and the loss -/

/-- A sum over the indices of a `[8192]` array is the sum over its coordinate. -/
theorem sum_ix1 (f : S8192.Idx → EReal) : ∑ j : S8192.Idx, f j = ∑ g : Fin 8192, f (ix1 g) :=
  Fintype.sum_equiv ⟨fun j => j 0, fun g => ix1 g, fun j => (eq_ix1 j).symm, fun _ => rfl⟩ _ _ (fun j => congrArg f (eq_ix1 j))

/-- The reference's result: minus the sum of the two per-row sums, over the batch size. -/
theorem ref_final (x : S8192x128.Idx → EReal) (i : S_.Idx) :
    val_main_v43 (F := Ideal) x i = Ideal.div (-((∑ g : Fin 8192, rowB (row x g) (row x (partner g)) (rows x) g.val)
      + (∑ g : Fin 8192, rowA (row x g) (row x (partner g)) (rows x) g.val) * cOne)) cB := by
  rw [val_main_v43_apply, val_main_v42_apply, val_main_v41_apply, val_main_v40_apply, val_main_v38_apply, val_main_v39_apply,
    val_main_cst_7_apply, val_main_cst_8_apply, val_main_cst_9_apply, val_main_cst_10_apply]
  simp only [Ideal.hostDivf_def, Ideal.hostNegf_def, Ideal.negf_def, Ideal.addf_def, Ideal.mulf_def, Ideal.ofBits_def, Ideal.ofBits_zero_f32,
    zero_add, sum_ix1, rowB_eq, rowA_eq]

end Cert.RefRows

end
-- ==== Proof.Bridge.lean ====
import proofs.«118030_j38843684225754_1_alg».proof.Proof.KIFinal
import proofs.«118030_j38843684225754_1_alg».proof.Proof.RefRows
import Idealize.ShloMosaic.Lib.StableHlo.Run

/-!
  The two losses are one function of the embedding matrix.

  The kernel's @main returns minus the sum of its output column over the batch size, the column holding at row `g`
  the row term `rowB g + rowA g · 1`.  The reference returns minus (the sum of the `rowB g` plus the sum of the
  `rowA g` times one) over the batch size, by its own stages read against the same row specification.  The two agree
  because a sum of sums is the sum of the two sums, on the extended reals as anywhere addition is commutative and
  associative.
-/

set_option maxRecDepth 16384

noncomputable section

open scoped BigOperators

namespace Cert.Bridge

open Idealize.ShloMosaic Idealize.ShloMosaic.TcCoe Idealize.ShloMosaic.ValueIdx Idealize.SL.Sem
open Cert.RowSpec

/-- The kernel program's loss from the matrix: its host operations applied to the column of row terms. -/
def kernelLoss (x : Cert.KernelIdeal.S8192x128.Idx → EReal) : Cert.KernelIdeal.S_.Idx → EReal :=
  Host.divf (Host.negf (Host.reduceAdd (F := Ideal) (Cert.KernelIdeal.Hand.rowCol x) (constant (F := Ideal) Cert.KernelIdeal.S_ .f32 0x00000000#32)
    Cert.KernelIdeal.Gen.reducesTo_S8192x1_S_d0_1 Cert.KernelIdeal.Gen.h_S_)) (constant (F := Ideal) Cert.KernelIdeal.S_ .f32 0x46000000#32)

/-- A sum over the indices of an `[8192, 1]` column is the sum over its rows. -/
theorem sum_col (f : Cert.KernelIdeal.S8192x1.Idx → EReal) : ∑ j : Cert.KernelIdeal.S8192x1.Idx, f j = ∑ g : Fin 8192, f (ix2 g (0 : Fin 1)) := by
  rw [sum_idx2]
  exact Finset.sum_congr rfl fun g _ => Fin.sum_univ_one _

/-- The kernel's loss, in closed form. -/
theorem kernelLoss_apply (x : Cert.KernelIdeal.S8192x128.Idx → EReal) (i : Cert.KernelIdeal.S_.Idx) :
    kernelLoss x i = Ideal.div (-(∑ g : Fin 8192, rowK (Cert.RefRows.row x g) (Cert.RefRows.row x (partner g)) (Cert.RefRows.rows x) g.val)) cB := by
  unfold kernelLoss
  show Ideal.div (-(Host.reduceAdd (F := Ideal) (Cert.KernelIdeal.Hand.rowCol x) (constant (F := Ideal) Cert.KernelIdeal.S_ .f32 0x00000000#32)
    Cert.KernelIdeal.Gen.reducesTo_S8192x1_S_d0_1 Cert.KernelIdeal.Gen.h_S_ i)) cB = _
  have hs : Host.reduceAdd (F := Ideal) (Cert.KernelIdeal.Hand.rowCol x) (constant (F := Ideal) Cert.KernelIdeal.S_ .f32 0x00000000#32)
      Cert.KernelIdeal.Gen.reducesTo_S8192x1_S_d0_1 Cert.KernelIdeal.Gen.h_S_ i
      = ∑ g : Fin 8192, rowK (Cert.RefRows.row x g) (Cert.RefRows.row x (partner g)) (Cert.RefRows.rows x) g.val := by
    simp only [Host.reduceAdd, Ideal.hostReduceAdd_def]
    rw [Ideal.hostReduceAdd_total Cert.KernelIdeal.Gen.reducesTo_S8192x1_S_d0_1 (fun b => b.elim0) (Cert.KernelIdeal.Hand.rowCol x) _ i, sum_col]
    show Ideal.ofBits .f32 0x00000000#32 + _ = _
    rw [Ideal.ofBits_zero_f32, zero_add]
    rfl
  rw [hs]

/-- THE BRIDGE: the kernel's loss is the reference's. -/
theorem loss_eq (x : Cert.KernelIdeal.S8192x128.Idx → EReal) :
    kernelLoss x = Cert.ReferenceIdeal.Read.val_main_v43 (F := Ideal) x := by
  funext i
  rw [kernelLoss_apply, Cert.RefRows.ref_final]
  unfold rowK
  rw [sum_rows]

end Cert.Bridge

end
-- ==== Proof.lean ====
/-
  The certificate of the contrastive row-loss kernel against its reference.

  The kernel computes, tile by tile of 128 rows, one term per row of an 8192 × 128 embedding matrix `x`: with
  `p = exp (⟨x g, x g'⟩ / T)` for the paired row `g' = g + 4096 (mod 8192)`, `e j = exp (⟨x g, x j⟩ / T)` for
  `j ≠ g` (and `0` at `j = g`), `S = ∑ j, e j` and `q = p / (S + ε)`, the term is
  `log q + (∑ j, log1p (−(e j / (S + ε))) − log1p (−q)) · 1`; the host then returns minus the sum of the 8192 terms
  over 8192.  The reference computes the same quantities for all rows at once and sums `log q` and the other part
  separately before adding.  On the extended reals the two results are equal: every operation is the same exact
  function on both sides, a change of float format is the identity, `0 − a = −a`, `a · 1 = a`, and a finite sum of
  sums is the sum of the two sums because addition is commutative and associative there (`RowSpec.sum_rows`); the
  precondition is not needed.

  The three input windows of the kernel stage pieces of ONE array, so the run deals the array's share in three for
  the region and joins it again for the host operations that follow (`Hand.run_main`, in each program's own copy);
  the frames are that run read at the argument.  The ideal pass rewrote nothing, so `preserves` is `True`.
-/
import proofs.«118030_j38843684225754_1_alg».proof.Defs
import proofs.«118030_j38843684225754_1_alg».proof.Proof.Gen.Kernel
import proofs.«118030_j38843684225754_1_alg».proof.Proof.Gen.KernelIdeal
import proofs.«118030_j38843684225754_1_alg».proof.Proof.Gen.ReferenceIdeal
import proofs.«118030_j38843684225754_1_alg».proof.Proof.Gen.Pre_finite_inputs
import proofs.«118030_j38843684225754_1_alg».proof.Proof.Gen.ReferenceIdeal.Run
import proofs.«118030_j38843684225754_1_alg».proof.Proof.Gen.ReferenceIdeal.Read
import proofs.«118030_j38843684225754_1_alg».proof.Proof.KRun
import proofs.«118030_j38843684225754_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its argument as launched. -/
theorem frame_k : Cert.frame_Kernel := fun m ρ _ => Cert.Kernel.Hand.frame m ρ

/-- So does the idealized one. -/
theorem frame_ki : Cert.frame_KernelIdeal := fun m ρ _ => Cert.KernelIdeal.Hand.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the matrix both programs end with the loss `Bridge.kernelLoss` of it. -/
theorem algebraic : Cert.algebraic_KernelIdeal_ReferenceIdeal := by
  intro m ρ m' ρ' _ hagree
  refine ⟨fun c => Cert.Bridge.kernelLoss (m ((c.tc : Thread Cert.KernelIdeal.nD Cert.KernelIdeal.τ).loc Cert.KernelIdeal.main_arg0)), ?_, ?_⟩
  · refine (θ_run Cert.KernelIdeal.defs _ _).mono (fun r h c => ⟨?_, ?_⟩) (Cert.KernelIdeal.Hand.run_main m ρ)
    · refine ((h c _ Cert.KernelIdeal.Hand.v3_mem).trans (Cert.KernelIdeal.Hand.Wend_v3 m c)).trans ?_
      rw [Cert.KernelIdeal.Hand.outArr_eq]
      rfl
    · exact (h c _ Cert.KernelIdeal.Hand.arg0_mem).trans (Cert.KernelIdeal.Hand.Wend_arg0 m c)
  · refine (θ_run Cert.ReferenceIdeal.defs _ _).mono (fun _ h c => ⟨?_, (h c).2⟩) (Cert.ReferenceIdeal.Value.run (F := Ideal) m' ρ')
    rw [(h c).1, Cert.ReferenceIdeal.Read.val_main_v43_eq, hagree c]
    exact (Cert.Bridge.loss_eq _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
